-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S10x3 : Shape := ⟨2, ![10, 3]⟩
abbrev S3x4 : Shape := ⟨2, ![3, 4]⟩
abbrev S4 : Shape := ⟨1, ![4]⟩
abbrev S_ : Shape := ⟨0, ![]⟩

class Facts : Prop where
  bcast_S_S10x3 : S_.BroadcastsInDim S10x3 (![] : Fin 0 → Fin S10x3.rank)
  reducesTo_S10x3_S_d0_1 : S10x3.ReducesTo [0, 1] S_
  h_S_ : 0 < S_.numel
  bcast_S_S3x4 : S_.BroadcastsInDim S3x4 (![] : Fin 0 → Fin S3x4.rank)
  reducesTo_S3x4_S_d0_1 : S3x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S4 .f32) (main_arg6 : FVec F S3x4 .f32) (main_arg7 : FVec F S4 .f32) (main_v13 : IVec S_ 1) (main_v16 : IVec S3x4 1) : IVec S_ 1 :=
  let main_c_5 : IVec S_ 1 := constantI S_ 1 1#1
  let main_v17 : IVec S_ 1 := (fun x v => Host.reduce IntOp.andi x v reducesTo_S3x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S3x4 .f32 := Host.absf main_arg6
  let main_cst_8 : FVec F S_ .f32 := constant S_ .f32 0x7F800000#32
  let main_v25 : FVec F S3x4 .f32 := broadcastInDim S3x4 ![] bcast_S_S3x4 main_cst_8
  let main_v26 : IVec S3x4 1 := cmpf .olt main_v24 main_v25
  let main_c_9 : IVec S_ 1 := constantI S_ 1 1#1
  let main_v27 : IVec S_ 1 := (fun x v => Host.reduce IntOp.andi x v reducesTo_S3x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : IVec S8192 32) (main_arg1 : FVec F S10x3 .f32) (main_arg2 : FVec F S3x4 .f32) (main_arg3 : FVec F S4 .f32) (main_arg4 : FVec F S3x4 .f32) (main_arg5 : FVec F S4 .f32) (main_arg6 : FVec F S3x4 .f32) (main_arg7 : FVec F S4 .f32) : IVec S_ 1 :=
  let main_v0 : FVec F S10x3 .f32 := Host.absf main_arg1
  let main_cst : FVec F S_ .f32 := constant S_ .f32 0x7F800000#32
  let main_v1 : FVec F S10x3 .f32 := broadcastInDim S10x3 ![] bcast_S_S10x3 main_cst
  let main_v2 : IVec S10x3 1 := cmpf .olt main_v0 main_v1
  let main_c : IVec S_ 1 := constantI S_ 1 1#1
  let main_v3 : IVec S_ 1 := (fun x v => Host.reduce IntOp.andi x v reducesTo_S10x3_S_d0_1 h_S_) main_v2 main_c
  let main_v4 : FVec F S3x4 .f32 := Host.absf main_arg2
  let main_cst_0 : FVec F S_ .f32 := constant S_ .f32 0x7F800000#32
  let main_v5 : FVec F S3x4 .f32 := broadcastInDim S3x4 ![] bcast_S_S3x4 main_cst_0
  let main_v6 : IVec S3x4 1 := cmpf .olt main_v4 main_v5
  let main_c_1 : IVec S_ 1 := constantI S_ 1 1#1
  let main_v7 : IVec S_ 1 := (fun x v => Host.reduce IntOp.andi x v reducesTo_S3x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S3x4 .f32 := Host.absf main_arg4
  let main_cst_4 : FVec F S_ .f32 := constant S_ .f32 0x7F800000#32
  let main_v15 : FVec F S3x4 .f32 := broadcastInDim S3x4 ![] bcast_S_S3x4 main_cst_4
  let main_v16 : IVec S3x4 1 := cmpf .olt main_v14 main_v15
  fn_part1 (F := F) main_arg5 main_arg6 main_arg7 main_v13 main_v16
-- ==== Kernel.lean ====
abbrev S8192 : Shape := ⟨1, ![8192]⟩
abbrev S10x3 : Shape := ⟨2, ![10, 3]⟩
abbrev S3x4 : Shape := ⟨2, ![3, 4]⟩
abbrev S4 : Shape := ⟨1, ![4]⟩
abbrev S_ : Shape := ⟨0, ![]⟩
abbrev S8192x1 : Shape := ⟨2, ![8192, 1]⟩
abbrev S8192x3 : Shape := ⟨2, ![8192, 3]⟩
abbrev S8192x4 : Shape := ⟨2, ![8192, 4]⟩
abbrev S1x4 : Shape := ⟨2, ![1, 4]⟩
abbrev S8192x5 : Shape := ⟨2, ![8192, 5]⟩
abbrev S1024x4 : Shape := ⟨2, ![1024, 4]⟩
abbrev S2048x4 : Shape := ⟨2, ![2048, 4]⟩
abbrev S2048x5 : Shape := ⟨2, ![2048, 5]⟩
abbrev S1024x1 : Shape := ⟨2, ![1024, 1]⟩
abbrev S1024x5 : Shape := ⟨2, ![1024, 5]⟩
abbrev S1024x2048 : Shape := ⟨2, ![1024, 2048]⟩
abbrev S1024 : Shape := ⟨1, ![1024]⟩

abbrev nBuf : Space → Nat
  | .hbm => 36
  | .vmem => 10
  | .smem => 0
  | _ => 0

abbrev bufTy : (tb : Table) → Fin (tcTables nBuf tb) → BufTy
  | .hbm, ⟨0, _⟩ => ⟨S8192, .i32⟩
  | .hbm, ⟨1, _⟩ => ⟨S10x3, .f32⟩
  | .hbm, ⟨2, _⟩ => ⟨S3x4, .f32⟩
  | .hbm, ⟨3, _⟩ => ⟨S4, .f32⟩
  | .hbm, ⟨4, _⟩ => ⟨S3x4, .f32⟩
  | .hbm, ⟨5, _⟩ => ⟨S4, .f32⟩
  | .hbm, ⟨6, _⟩ => ⟨S3x4, .f32⟩
  | .hbm, ⟨7, _⟩ => ⟨S4, .f32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S8192x3, .f32⟩
  | .hbm, ⟨17, _⟩ => ⟨S8192x4, .f32⟩
  | .hbm, ⟨18, _⟩ => ⟨S1x4, .f32⟩
  | .hbm, ⟨19, _⟩ => ⟨S8192x4, .f32⟩
  | .hbm, ⟨20, _⟩ => ⟨S8192x4, .f32⟩
  | .hbm, ⟨21, _⟩ => ⟨S_, .f32⟩
  | .hbm, ⟨22, _⟩ => ⟨S8192x4, .f32⟩
  | .hbm, ⟨23, _⟩ => ⟨S8192x4, .f32⟩
  | .hbm, ⟨24, _⟩ => ⟨S8192x4, .f32⟩
  | .hbm, ⟨25, _⟩ => ⟨S1x4, .f32⟩
  | .hbm, ⟨26, _⟩ => ⟨S8192x4, .f32⟩
  | .hbm, ⟨27, _⟩ => ⟨S8192x4, .f32⟩
  | .hbm, ⟨28, _⟩ => ⟨S8192x4, .f32⟩
  | .hbm, ⟨29, _⟩ => ⟨S1x4, .f32⟩
  | .hbm, ⟨30, _⟩ => ⟨S8192x4, .f32⟩
  | .hbm, ⟨31, _⟩ => ⟨S8192x4, .f32⟩
  | .hbm, ⟨32, _⟩ => ⟨S_, .f32⟩
  | .hbm, ⟨33, _⟩ => ⟨S8192x1, .f32⟩
  | .hbm, ⟨34, _⟩ => ⟨S8192x5, .f32⟩
  | .hbm, ⟨35, _⟩ => ⟨S8192x4, .f32⟩
  | .local _ .vmem, ⟨0, _⟩ => ⟨S1024x4, .f32⟩
  | .local _ .vmem, ⟨1, _⟩ => ⟨S1024x4, .f32⟩
  | .local _ .vmem, ⟨2, _⟩ => ⟨S2048x4, .f32⟩
  | .local _ .vmem, ⟨3, _⟩ => ⟨S2048x4, .f32⟩
  | .local _ .vmem, ⟨4, _⟩ => ⟨S2048x5, .f32⟩
  | .local _ .vmem, ⟨5, _⟩ => ⟨S2048x5, .f32⟩
  | .local _ .vmem, ⟨6, _⟩ => ⟨S1024x4, .f32⟩
  | .local _ .vmem, ⟨7, _⟩ => ⟨S1024x4, .f32⟩
  | .local _ .vmem, ⟨8, _⟩ => ⟨S1024x1, .f32⟩
  | .local _ .vmem, ⟨9, _⟩ => ⟨S1024x5, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v34 : BitVec 1 := Scalar.cmpi .eq arg1 c3_i32
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  bcast_S_S8192x4 : S_.BroadcastsInDim S8192x4 (![] : Fin 0 → Fin S8192x4.rank)
  bcast_S_S8192x1 : S_.BroadcastsInDim S8192x1 (![] : Fin 0 → Fin S8192x1.rank)
  concatenates_S8192x4_S8192x1_S8192x5_d1 : Shape.Concatenates [S8192x4, S8192x1] S8192x5 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x5_S1024x5_0_0 : ∀ a, (![0, 0] : Fin 2 → Nat) a + S1024x5.size a ≤ S1024x5.size a
  h_S1024x5 : 0 < S1024x5.numel
  shapeCasts_S1024x5_S1024x5 : S1024x5.ShapeCasts S1024x5
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  bitsLt_bf16_f32 : FTy.bits .bf16 < FTy.bits .f32
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  inb_S2048x5_S2048x5_0_0 : ∀ a, (![0, 0] : Fin 2 → Nat) a + S2048x5.size a ≤ S2048x5.size a
  h_S2048x5 : 0 < S2048x5.numel
  shapeCasts_S2048x5_S2048x5 : S2048x5.ShapeCasts S2048x5
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x5 : S1024x1.Broadcasts S1024x5
  slices_S1024x5_o0_0_S1024x4 : S1024x5.Slices ![0, 0] S1024x4
  slices_S1024x5_o0_4_S1024x1 : S1024x5.Slices ![0, 4] S1024x1
  broadcasts_S1024x1_S1024x4 : S1024x1.Broadcasts S1024x4
  gather_S10x3_S8192x1_S8192x3_1_0_n_n_0_1_13_wf : GatherDims.WF S10x3 S8192x1 S8192x3 [1] [0] [] [0] [] 1 ![1, 3]
  dot_S8192x3_S3x4_S8192x4_1_0_0_1_n_n_wf : DotDims.WF S8192x3 S3x4 S8192x4 [1] [0] [0] [1] [] []
  dot_S1024x4_S2048x4_S1024x2048_1_1_0_0_n_n_wf : DotDims.WF S1024x4 S2048x4 S1024x2048 [1] [1] [0] [0] [] []
  dot_S1024x2048_S2048x5_S1024x5_1_0_0_1_n_n_wf : DotDims.WF S1024x2048 S2048x5 S1024x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S8192x4.size a
  hwx0_0 : ∀ i : grid0.Coords, EltTy.bits .f32 = 32 ∨ (Rect.block (s := S8192x4) S1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x4.size a ≤ S8192x4.size a
  hwx0_1 : ∀ i : grid0.Coords, EltTy.bits .f32 = 32 ∨ (Rect.block (s := S8192x4) S2048x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x5.size a ≤ S8192x5.size a
  hwx0_2 : ∀ i : grid0.Coords, EltTy.bits .f32 = 32 ∨ (Rect.block (s := S8192x5) S2048x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4.size a ≤ S8192x4.size a
  hwx0_3 : ∀ i : grid0.Coords, EltTy.bits .f32 = 32 ∨ (Rect.block (s := S8192x4) S1024x4.size (cc0_transform_3 i) (hinb0_3 i)).WholeWords (EltTy.packing .f32)

variable [Facts₀]

def gather_S10x3_S8192x1_S8192x3_1_0_n_n_0_1_13 : GatherDims S10x3 S8192x1 S8192x3 where
  offsetDims := [1]
  collapsedSliceDims := [0]
  operandBatchingDims := []
  startIndicesBatchingDims := []
  startIndexMap := [0]
  indexVectorDim := 1
  sliceSizes := ![1, 3]
  wf := gather_S10x3_S8192x1_S8192x3_1_0_n_n_0_1_13_wf
def dot_S8192x3_S3x4_S8192x4_1_0_0_1_n_n : DotDims S8192x3 S3x4 S8192x4 where
  lhsContracting := [1]
  rhsContracting := [0]
  lhsNonContracting := [0]
  rhsNonContracting := [1]
  lhsBatch := []
  rhsBatch := []
  wf := dot_S8192x3_S3x4_S8192x4_1_0_0_1_n_n_wf
def dot_S1024x4_S2048x4_S1024x2048_1_1_0_0_n_n : DotDims S1024x4 S2048x4 S1024x2048 where
  lhsContracting := [1]
  rhsContracting := [1]
  lhsNonContracting := [0]
  rhsNonContracting := [0]
  lhsBatch := []
  rhsBatch := []
  wf := dot_S1024x4_S2048x4_S1024x2048_1_1_0_0_n_n_wf
def dot_S1024x2048_S2048x5_S1024x5_1_0_0_1_n_n : DotDims S1024x2048 S2048x5 S1024x5 where
  lhsContracting := [1]
  rhsContracting := [0]
  lhsNonContracting := [0]
  rhsNonContracting := [1]
  lhsBatch := []
  rhsBatch := []
  wf := dot_S1024x2048_S2048x5_S1024x5_1_0_0_1_n_n_wf

abbrev win0_0 : Pipeline.Window sig grid0 :=
  Pipeline.Window.ofSpec (Memref.whole main_v12) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2048x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S2048x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1024x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192 : Shape := ⟨1, ![8192]⟩
abbrev S10x3 : Shape := ⟨2, ![10, 3]⟩
abbrev S3x4 : Shape := ⟨2, ![3, 4]⟩
abbrev S4 : Shape := ⟨1, ![4]⟩
abbrev S_ : Shape := ⟨0, ![]⟩
abbrev S8192x1 : Shape := ⟨2, ![8192, 1]⟩
abbrev S8192x3 : Shape := ⟨2, ![8192, 3]⟩
abbrev S8192x4 : Shape := ⟨2, ![8192, 4]⟩
abbrev S1x4 : Shape := ⟨2, ![1, 4]⟩
abbrev S4x8192 : Shape := ⟨2, ![4, 8192]⟩
abbrev S8192x8192 : Shape := ⟨2, ![8192, 8192]⟩

abbrev nBuf : Space → Nat
  | .hbm => 50
  | .vmem => 0
  | .smem => 0
  | _ => 0

abbrev bufTy : (tb : Table) → Fin (tcTables nBuf tb) → BufTy
  | .hbm, ⟨0, _⟩ => ⟨S8192, .i32⟩
  | .hbm, ⟨1, _⟩ => ⟨S10x3, .f32⟩
  | .hbm, ⟨2, _⟩ => ⟨S3x4, .f32⟩
  | .hbm, ⟨3, _⟩ => ⟨S4, .f32⟩
  | .hbm, ⟨4, _⟩ => ⟨S3x4, .f32⟩
  | .hbm, ⟨5, _⟩ => ⟨S4, .f32⟩
  | .hbm, ⟨6, _⟩ => ⟨S3x4, .f32⟩
  | .hbm, ⟨7, _⟩ => ⟨S4, .f32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S8192x3, .f32⟩
  | .hbm, ⟨17, _⟩ => ⟨S8192x4, .f32⟩
  | .hbm, ⟨18, _⟩ => ⟨S1x4, .f32⟩
  | .hbm, ⟨19, _⟩ => ⟨S8192x4, .f32⟩
  | .hbm, ⟨20, _⟩ => ⟨S8192x4, .f32⟩
  | .hbm, ⟨21, _⟩ => ⟨S8192x4, .f32⟩
  | .hbm, ⟨22, _⟩ => ⟨S1x4, .f32⟩
  | .hbm, ⟨23, _⟩ => ⟨S8192x4, .f32⟩
  | .hbm, ⟨24, _⟩ => ⟨S8192x4, .f32⟩
  | .hbm, ⟨25, _⟩ => ⟨S8192x4, .f32⟩
  | .hbm, ⟨26, _⟩ => ⟨S1x4, .f32⟩
  | .hbm, ⟨27, _⟩ => ⟨S8192x4, .f32⟩
  | .hbm, ⟨28, _⟩ => ⟨S8192x4, .f32⟩
  | .hbm, ⟨29, _⟩ => ⟨S4x8192, .f32⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x8192, .f32⟩
  | .hbm, ⟨48, _⟩ => ⟨S8192x8192, .f32⟩
  | .hbm, ⟨49, _⟩ => ⟨S8192x4, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  transposes_S8192x4_S4x8192_1_0 : S8192x4.Transposes [1, 0] S4x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192x1_S8192x8192_0_1 : S8192x1.BroadcastsInDim S8192x8192 (![0, 1] : Fin 2 → Fin S8192x8192.rank)
  gather_S10x3_S8192x1_S8192x3_1_0_n_n_0_1_13_wf : GatherDims.WF S10x3 S8192x1 S8192x3 [1] [0] [] [0] [] 1 ![1, 3]
  dot_S8192x3_S3x4_S8192x4_1_0_0_1_n_n_wf : DotDims.WF S8192x3 S3x4 S8192x4 [1] [0] [0] [1] [] []
  dot_S8192x4_S4x8192_S8192x8192_1_0_0_1_n_n_wf : DotDims.WF S8192x4 S4x8192 S8192x8192 [1] [0] [0] [1] [] []
  dot_S8192x8192_S8192x4_S8192x4_1_0_0_1_n_n_wf : DotDims.WF S8192x8192 S8192x4 S8192x4 [1] [0] [0] [1] [] []

variable [Facts₀]

def gather_S10x3_S8192x1_S8192x3_1_0_n_n_0_1_13 : GatherDims S10x3 S8192x1 S8192x3 where
  offsetDims := [1]
  collapsedSliceDims := [0]
  operandBatchingDims := []
  startIndicesBatchingDims := []
  startIndexMap := [0]
  indexVectorDim := 1
  sliceSizes := ![1, 3]
  wf := gather_S10x3_S8192x1_S8192x3_1_0_n_n_0_1_13_wf
def dot_S8192x3_S3x4_S8192x4_1_0_0_1_n_n : DotDims S8192x3 S3x4 S8192x4 where
  lhsContracting := [1]
  rhsContracting := [0]
  lhsNonContracting := [0]
  rhsNonContracting := [1]
  lhsBatch := []
  rhsBatch := []
  wf := dot_S8192x3_S3x4_S8192x4_1_0_0_1_n_n_wf
def dot_S8192x4_S4x8192_S8192x8192_1_0_0_1_n_n : DotDims S8192x4 S4x8192 S8192x8192 where
  lhsContracting := [1]
  rhsContracting := [0]
  lhsNonContracting := [0]
  rhsNonContracting := [1]
  lhsBatch := []
  rhsBatch := []
  wf := dot_S8192x4_S4x8192_S8192x8192_1_0_0_1_n_n_wf
def dot_S8192x8192_S8192x4_S8192x4_1_0_0_1_n_n : DotDims S8192x8192 S8192x4 S8192x4 where
  lhsContracting := [1]
  rhsContracting := [0]
  lhsNonContracting := [0]
  rhsNonContracting := [1]
  lhsBatch := []
  rhsBatch := []
  wf := dot_S8192x8192_S8192x4_S8192x4_1_0_0_1_n_n_wf

class Facts : Prop extends Facts₀ where

variable [Facts]
-- ==== Proof.Pieces.lean ====
/-
  What one step of the online softmax leaves in its two carried buffers and in the output block.

  The kernel keeps, for the 1024 query rows of a block, a running maximum `mx` ([1024, 1]) and a running accumulator
  `acc` ([1024, 5]: four value columns and the softmax denominator in the fifth).  At the first key/value tile both are
  first filled (with a large negative number and with zero) and then updated; at the other tiles they are updated from
  what the tile before left; at the last tile the output block is, in addition, the accumulator's value columns
  divided by its denominator column.  Each update is ONE store covering the whole buffer, so what the buffer holds
  afterwards is that store's value, a pure function of the three input blocks and of the buffers' previous contents:
      new maximum      = `k0_pay7 q k mx`
      new accumulator  = `k0_pay6 q k v mx acc`
      output block     = `k0_pay1` of the new accumulator.
  All of it holds for any float instance.
-/
import proofs.«120942_j28905129902584_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First tile: the running maximum after the step, from the initial fill. -/
theorem max_first (c : Dev nD) (i : grid0.Coords) (arg2 : Memref sig .tc .vmem S1024x4 .f32) (harg2 : arg2.IsWhole) (arg3 : Memref sig .tc .vmem S2048x4 .f32) (harg3 : arg3.IsWhole) (arg4 : Memref sig .tc .vmem S2048x5 .f32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x5 .f32) (harg7 : arg7.IsWhole) (hc0 : cond0_0 i) (hc1 : ¬cond0_1 i) (x0 : Vec F S1024x4 .f32) (x1 : Vec F S2048x4 .f32) (x2 : Vec F S2048x5 .f32) :
    sout0_A_0 c i arg2 harg2 arg3 harg3 arg4 harg4 arg5 harg5 arg6 harg6 arg7 harg7 hc0 hc1 x0 x1 x2 = k0_pay7 x0 x1 (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg6.read_unread, harg7.read_unread, View.ld_unit_zero (S := S1024x4) hz, View.ld_unit_zero (S := S2048x4) hz, View.ld_unit_zero (S := S2048x5) hz, View.ld_unit_zero (S := S1024x1) hz, View.ld_unit_zero (S := S1024x5) hz]

/-- First tile: the accumulator after the step, from the initial fills. -/
theorem acc_first (c : Dev nD) (i : grid0.Coords) (arg2 : Memref sig .tc .vmem S1024x4 .f32) (harg2 : arg2.IsWhole) (arg3 : Memref sig .tc .vmem S2048x4 .f32) (harg3 : arg3.IsWhole) (arg4 : Memref sig .tc .vmem S2048x5 .f32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x5 .f32) (harg7 : arg7.IsWhole) (hc0 : cond0_0 i) (hc1 : ¬cond0_1 i) (x0 : Vec F S1024x4 .f32) (x1 : Vec F S2048x4 .f32) (x2 : Vec F S2048x5 .f32) :
    sout0_A_1 c i arg2 harg2 arg3 harg3 arg4 harg4 arg5 harg5 arg6 harg6 arg7 harg7 hc0 hc1 x0 x1 x2 = k0_pay6 x0 x1 x2 (k0_pay2 (F := F)) (k0_pay3 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S1024x5) hz, View.readCov_unit_zero (S := S1024x1) _ hz,
    View.readCov_unit_zero (S := S1024x5) _ hz]
  simp only [View.readAt_eq_ld, harg2.read_unread, harg3.read_unread, harg4.read_unread, harg6.read_unread, harg7.read_unread, View.ld_unit_zero (S := S1024x4) hz, View.ld_unit_zero (S := S2048x4) hz, View.ld_unit_zero (S := S2048x5) hz, View.ld_unit_zero (S := S1024x1) hz, View.ld_unit_zero (S := S1024x5) hz]

/-- A middle tile: the running maximum after the step, from what the tile before left. -/
theorem max_next (c : Dev nD) (i : grid0.Coords) (arg2 : Memref sig .tc .vmem S1024x4 .f32) (harg2 : arg2.IsWhole) (arg3 : Memref sig .tc .vmem S2048x4 .f32) (harg3 : arg3.IsWhole) (arg4 : Memref sig .tc .vmem S2048x5 .f32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x5 .f32) (harg7 : arg7.IsWhole) (hc0 : ¬cond0_0 i) (hc1 : ¬cond0_1 i) (x0 : Vec F S1024x4 .f32) (x1 : Vec F S2048x4 .f32) (x2 : Vec F S2048x5 .f32) (xs0 : Vec F S1024x1 .f32) (xs1 : Vec F S1024x5 .f32) :
    sout0_B_0 c i arg2 harg2 arg3 harg3 arg4 harg4 arg5 harg5 arg6 harg6 arg7 harg7 hc0 hc1 x0 x1 x2 xs0 xs1 = k0_pay7 x0 x1 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  rw [View.canon_unit_zero hz]
  simp only [View.readAt_eq_ld, harg2.read_unread, harg3.read_unread, harg4.read_unread, harg6.read_unread, harg7.read_unread, View.ld_unit_zero (S := S1024x4) hz, View.ld_unit_zero (S := S2048x4) hz, View.ld_unit_zero (S := S2048x5) hz, View.ld_unit_zero (S := S1024x1) hz, View.ld_unit_zero (S := S1024x5) hz]

/-- A middle tile: the accumulator after the step, from what the tile before left. -/
theorem acc_next (c : Dev nD) (i : grid0.Coords) (arg2 : Memref sig .tc .vmem S1024x4 .f32) (harg2 : arg2.IsWhole) (arg3 : Memref sig .tc .vmem S2048x4 .f32) (harg3 : arg3.IsWhole) (arg4 : Memref sig .tc .vmem S2048x5 .f32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x5 .f32) (harg7 : arg7.IsWhole) (hc0 : ¬cond0_0 i) (hc1 : ¬cond0_1 i) (x0 : Vec F S1024x4 .f32) (x1 : Vec F S2048x4 .f32) (x2 : Vec F S2048x5 .f32) (xs0 : Vec F S1024x1 .f32) (xs1 : Vec F S1024x5 .f32) :
    sout0_B_1 c i arg2 harg2 arg3 harg3 arg4 harg4 arg5 harg5 arg6 harg6 arg7 harg7 hc0 hc1 x0 x1 x2 xs0 xs1 = k0_pay6 x0 x1 x2 xs0 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  rw [View.canon_unit_zero hz]
  simp only [View.readAt_eq_ld, harg2.read_unread, harg3.read_unread, harg4.read_unread, harg6.read_unread, harg7.read_unread, View.ld_unit_zero (S := S1024x4) hz, View.ld_unit_zero (S := S2048x4) hz, View.ld_unit_zero (S := S2048x5) hz, View.ld_unit_zero (S := S1024x1) hz, View.ld_unit_zero (S := S1024x5) hz]

/-- The last tile: the running maximum after the step. -/
theorem max_last (c : Dev nD) (i : grid0.Coords) (arg2 : Memref sig .tc .vmem S1024x4 .f32) (harg2 : arg2.IsWhole) (arg3 : Memref sig .tc .vmem S2048x4 .f32) (harg3 : arg3.IsWhole) (arg4 : Memref sig .tc .vmem S2048x5 .f32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x5 .f32) (harg7 : arg7.IsWhole) (hc0 : ¬cond0_0 i) (hc1 : cond0_1 i) (x0 : Vec F S1024x4 .f32) (x1 : Vec F S2048x4 .f32) (x2 : Vec F S2048x5 .f32) (xs0 : Vec F S1024x1 .f32) (xs1 : Vec F S1024x5 .f32) :
    sout0_C_0 c i arg2 harg2 arg3 harg3 arg4 harg4 arg5 harg5 arg6 harg6 arg7 harg7 hc0 hc1 x0 x1 x2 xs0 xs1 = k0_pay7 x0 x1 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread, View.ld_unit_zero (S := S1024x4) hz, View.ld_unit_zero (S := S2048x4) hz, View.ld_unit_zero (S := S2048x5) hz, View.ld_unit_zero (S := S1024x1) hz, View.ld_unit_zero (S := S1024x5) hz]

/-- The last tile: the accumulator after the step. -/
theorem acc_last (c : Dev nD) (i : grid0.Coords) (arg2 : Memref sig .tc .vmem S1024x4 .f32) (harg2 : arg2.IsWhole) (arg3 : Memref sig .tc .vmem S2048x4 .f32) (harg3 : arg3.IsWhole) (arg4 : Memref sig .tc .vmem S2048x5 .f32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x5 .f32) (harg7 : arg7.IsWhole) (hc0 : ¬cond0_0 i) (hc1 : cond0_1 i) (x0 : Vec F S1024x4 .f32) (x1 : Vec F S2048x4 .f32) (x2 : Vec F S2048x5 .f32) (xs0 : Vec F S1024x1 .f32) (xs1 : Vec F S1024x5 .f32) :
    sout0_C_1 c i arg2 harg2 arg3 harg3 arg4 harg4 arg5 harg5 arg6 harg6 arg7 harg7 hc0 hc1 x0 x1 x2 xs0 xs1 = k0_pay6 x0 x1 x2 xs0 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread, View.ld_unit_zero (S := S1024x4) hz, View.ld_unit_zero (S := S2048x4) hz, View.ld_unit_zero (S := S2048x5) hz, View.ld_unit_zero (S := S1024x1) hz, View.ld_unit_zero (S := S1024x5) hz]

/-- The last tile: the output block is the quotient read off the accumulator the step has just stored. -/
theorem out_last (c : Dev nD) (i : grid0.Coords) (arg2 : Memref sig .tc .vmem S1024x4 .f32) (harg2 : arg2.IsWhole) (arg3 : Memref sig .tc .vmem S2048x4 .f32) (harg3 : arg3.IsWhole) (arg4 : Memref sig .tc .vmem S2048x5 .f32) (harg4 : arg4.IsWhole) (arg5 : Memref sig .tc .vmem S1024x4 .f32) (harg5 : arg5.IsWhole) (arg6 : Memref sig .tc .vmem S1024x1 .f32) (harg6 : arg6.IsWhole) (arg7 : Memref sig .tc .vmem S1024x5 .f32) (harg7 : arg7.IsWhole) (hc0 : ¬cond0_0 i) (hc1 : cond0_1 i) (x0 : Vec F S1024x4 .f32) (x1 : Vec F S2048x4 .f32) (x2 : Vec F S2048x5 .f32) (xs0 : Vec F S1024x1 .f32) (xs1 : Vec F S1024x5 .f32) :
    out0_C_3 c i arg2 harg2 arg3 harg3 arg4 harg4 arg5 harg5 arg6 harg6 arg7 harg7 hc0 hc1 x0 x1 x2 xs0 xs1 = k0_pay1 (k0_pay6 x0 x1 x2 xs0 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz, View.readCov_unit_zero (S := S1024x5) _ hz]
  simp only [View.readAt_eq_ld, harg2.read_unread, harg3.read_unread, harg4.read_unread, harg6.read_unread, harg7.read_unread, View.ld_unit_zero (S := S1024x4) hz, View.ld_unit_zero (S := S2048x4) hz, View.ld_unit_zero (S := S2048x5) hz, View.ld_unit_zero (S := S1024x1) hz, View.ld_unit_zero (S := S1024x5) hz]

end Cert.KernelIdeal.Pieces

end
-- ==== Proof.Carried.lean ====
/-
  The carried buffers, grid point by grid point.

  The grid runs over 8 query blocks × 4 key/value tiles, the tile index fastest: point `t` is query block `t / 4` and
  tile `t % 4`.  After the body at point `t` the running maximum and the accumulator hold
      at a first tile (t % 4 = 0):   the step's values from the two initial fills,
      at any other tile:             the step's values from what point `t − 1` left,
  and at a last tile (t % 4 = 3) the output block holds the quotient read off the accumulator of that same point.
  The input blocks of a point are named here with their literal block types.
-/
import proofs.«120942_j28905129902584_2_alg».proof.Proof.Gen.KernelIdeal.Value
import proofs.«120942_j28905129902584_2_alg».proof.Proof.Pieces

noncomputable section

open Idealize.ShloMosaic Idealize.ShloMosaic.TcCoe Idealize.SL.Sem

namespace Cert.KernelIdeal.Carried

open Cert.KernelIdeal Cert.KernelIdeal.Gen

variable {F : FTy → Type} [FloatOps F]
variable (m : (ℓ : Loc nD τ sig) → Buf (Elt F) ℓ)

/-- The query block of point `t`. -/
def qblk (c : Dev nD) (t : Fin cfg0.N) : Vec F S1024x4 .f32 := iblk m c 0 t
/-- The key block of point `t`. -/
def kblk (c : Dev nD) (t : Fin cfg0.N) : Vec F S2048x4 .f32 := iblk m c 1 t
/-- The value block of point `t` (with its column of ones). -/
def vblk (c : Dev nD) (t : Fin cfg0.N) : Vec F S2048x5 .f32 := iblk m c 2 t

/-- The running maximum after point `n`. -/
def mxAt (c : Dev nD) (n : ℕ) (h : n < cfg0.N) : Vec F S1024x1 .f32 := (outsAt0 m c n h).2.1
/-- The accumulator after point `n`. -/
def accAt (c : Dev nD) (n : ℕ) (h : n < cfg0.N) : Vec F S1024x5 .f32 := (outsAt0 m c n h).2.2

set_option maxHeartbeats 1000000 in
/-- After a first tile: one step from the initial fills. -/
theorem first (c : Dev nD) (t : Fin cfg0.N) (h0 : t.val % 4 = 0) :
    mxAt m c t.val t.isLt = k0_pay7 (qblk m c t) (kblk m c t) (k0_pay2 (F := F))
    ∧ accAt m c t.val t.isLt = k0_pay6 (qblk m c t) (kblk m c t) (vblk m c t) (k0_pay2 (F := F)) (k0_pay3 (F := F)) := by
  have h1 : ¬t.val % 4 = 3 := by omega
  have e := outsAt0_A m c t h0 h1
  have e1 := congrArg (fun p => p.2.1) e
  have e2 := congrArg (fun p => p.2.2) e
  have f1 := Pieces.max_first c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (qblk m c t) (kblk m c t) (vblk m c t)
  have f2 := Pieces.acc_first c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (qblk m c t) (kblk m c t) (vblk m c t)
  dsimp only at e1 e2
  exact ⟨e1.trans f1, e2.trans f2⟩

set_option maxHeartbeats 1000000 in
/-- After any other tile: one step from what the point before left. -/
theorem next (c : Dev nD) (t : Fin cfg0.N) (h0 : ¬t.val % 4 = 0) :
    mxAt m c t.val t.isLt = k0_pay7 (qblk m c t) (kblk m c t) (mxAt m c (t.val - 1) (Nat.lt_of_le_of_lt (Nat.sub_le _ _) t.isLt))
    ∧ accAt m c t.val t.isLt = k0_pay6 (qblk m c t) (kblk m c t) (vblk m c t) (mxAt m c (t.val - 1) (Nat.lt_of_le_of_lt (Nat.sub_le _ _) t.isLt))
        (accAt m c (t.val - 1) (Nat.lt_of_le_of_lt (Nat.sub_le _ _) t.isLt)) := by
  by_cases h1 : t.val % 4 = 3
  · have e := outsAt0_C m c t h0 h1
    have e1 := congrArg (fun p => p.2.1) e
    have e2 := congrArg (fun p => p.2.2) e
    have f1 := Pieces.max_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (qblk m c t) (kblk m c t) (vblk m c t) (mxAt m c (t.val - 1) (Nat.lt_of_le_of_lt (Nat.sub_le _ _) t.isLt)) (accAt m c (t.val - 1) (Nat.lt_of_le_of_lt (Nat.sub_le _ _) t.isLt))
    have f2 := Pieces.acc_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (qblk m c t) (kblk m c t) (vblk m c t) (mxAt m c (t.val - 1) (Nat.lt_of_le_of_lt (Nat.sub_le _ _) t.isLt)) (accAt m c (t.val - 1) (Nat.lt_of_le_of_lt (Nat.sub_le _ _) t.isLt))
    dsimp only at e1 e2
    exact ⟨e1.trans f1, e2.trans f2⟩
  · have e := outsAt0_B m c t h0 h1
    have e1 := congrArg (fun p => p.2.1) e
    have e2 := congrArg (fun p => p.2.2) e
    have f1 := Pieces.max_next c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (qblk m c t) (kblk m c t) (vblk m c t) (mxAt m c (t.val - 1) (Nat.lt_of_le_of_lt (Nat.sub_le _ _) t.isLt)) (accAt m c (t.val - 1) (Nat.lt_of_le_of_lt (Nat.sub_le _ _) t.isLt))
    have f2 := Pieces.acc_next c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (qblk m c t) (kblk m c t) (vblk m c t) (mxAt m c (t.val - 1) (Nat.lt_of_le_of_lt (Nat.sub_le _ _) t.isLt)) (accAt m c (t.val - 1) (Nat.lt_of_le_of_lt (Nat.sub_le _ _) t.isLt))
    dsimp only at e1 e2
    exact ⟨e1.trans f1, e2.trans f2⟩

set_option maxHeartbeats 1000000 in
/-- After a last tile the output block is the quotient read off that point's accumulator. -/
theorem out_last (c : Dev nD) (t : Fin cfg0.N) (h0 : ¬t.val % 4 = 0) (h1 : t.val % 4 = 3) :
    (outsAt0 m c t.val t.isLt).1 = k0_pay1 (accAt m c t.val t.isLt) := by
  have e := outsAt0_C m c t h0 h1
  have e0 := congrArg (fun p => p.1) e
  have e2 := congrArg (fun p => p.2.2) e
  have f0 := Pieces.out_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (qblk m c t) (kblk m c t) (vblk m c t) (mxAt m c (t.val - 1) (Nat.lt_of_le_of_lt (Nat.sub_le _ _) t.isLt)) (accAt m c (t.val - 1) (Nat.lt_of_le_of_lt (Nat.sub_le _ _) t.isLt))
  have f2 := Pieces.acc_last c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (qblk m c t) (kblk m c t) (vblk m c t) (mxAt m c (t.val - 1) (Nat.lt_of_le_of_lt (Nat.sub_le _ _) t.isLt)) (accAt m c (t.val - 1) (Nat.lt_of_le_of_lt (Nat.sub_le _ _) t.isLt))
  dsimp only at e0 e2
  have g2 : accAt m c t.val t.isLt = k0_pay6 (qblk m c t) (kblk m c t) (vblk m c t) (mxAt m c (t.val - 1) (Nat.lt_of_le_of_lt (Nat.sub_le _ _) t.isLt)) (accAt m c (t.val - 1) (Nat.lt_of_le_of_lt (Nat.sub_le _ _) t.isLt)) := e2.trans f2
  rw [g2]
  exact e0.trans f0

end Cert.KernelIdeal.Carried

end
-- ==== Proof.Blocks.lean ====
/-
  Where the blocks of a grid point sit in the whole arrays.

  The kernel's three operands are whole arrays: the scaled queries [8192, 4], the keys [8192, 4] and the values with a
  column of ones [8192, 5].  At point `t` (query block `t / 4`, key/value tile `t % 4`) the query block is rows
  `(t / 4)·1024 + r` of the queries, the key and value blocks are rows `(t % 4)·2048 + j` of the keys and the values, and the
  output block is rows `(t / 4)·1024 + r` of the result: a block's row is always (block index) × (block rows) + (row inside
  the block), and the block indices are decided once over the 32 points.
-/
import proofs.«120942_j28905129902584_2_alg».proof.Proof.Carried
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Carried

variable {F : FTy → Type} [FloatOps F]
variable (m : (ℓ : Loc nD τ sig) → Buf (Elt F) ℓ)

/-- The scaled queries, as the kernel finds them. -/
def qArr (c : Dev nD) : Vec F S8192x4 .f32 := V m c main_v12
/-- The keys, as the kernel finds them. -/
def kArr (c : Dev nD) : Vec F S8192x4 .f32 := V m c main_v16
/-- The values with their column of ones, as the kernel finds them. -/
def wArr (c : Dev nD) : Vec F S8192x5 .f32 := V m c main_v22

/-- The block indices of the four windows at every grid point. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val % 4 ∧ win0_2.index t (1 : Fin 2) = 0
    ∧ win0_3.index t (0 : Fin 2) = t.val / 4 ∧ win0_3.index t (1 : Fin 2) = 0 :=
  (by decide +kernel : ∀ t : Fin grid0.N, _)

/-- The query block's entry `(r, d)` is the queries' entry `((t / 4)·1024 + r, d)`. -/
theorem qblk_at (c : Dev nD) (t : Fin cfg0.N) (r : Fin 1024) (d : Fin 4) (h : t.val / 4 * 1024 + r.val < 8192) :
    qblk m c t (ix2 r d) = qArr m c (ix2 ⟨t.val / 4 * 1024 + r.val, h⟩ d) := by
  unfold qblk iblk
  rw [View.read_apply]
  show qArr m c _ = qArr m c _
  refine congrArg (qArr m c) (funext fun a => Fin.ext ?_)
  match a with
  | ⟨0, _⟩ => show win0_0.index t 0 * 1024 + 1 * r.val = t.val / 4 * 1024 + r.val; rw [(idx_facts t).1]; omega
  | ⟨1, _⟩ => show win0_0.index t 1 * 4 + 1 * d.val = d.val; rw [(idx_facts t).2.1]; omega

/-- The key block's entry `(j, d)` is the keys' entry `((t % 4)·2048 + j, d)`. -/
theorem kblk_at (c : Dev nD) (t : Fin cfg0.N) (j : Fin 2048) (d : Fin 4) (h : t.val % 4 * 2048 + j.val < 8192) :
    kblk m c t (ix2 j d) = kArr m c (ix2 ⟨t.val % 4 * 2048 + j.val, h⟩ d) := by
  unfold kblk iblk
  rw [View.read_apply]
  show kArr m c _ = kArr m c _
  refine congrArg (kArr m c) (funext fun a => Fin.ext ?_)
  match a with
  | ⟨0, _⟩ => show win0_1.index t 0 * 2048 + 1 * j.val = t.val % 4 * 2048 + j.val; rw [(idx_facts t).2.2.1]; omega
  | ⟨1, _⟩ => show win0_1.index t 1 * 4 + 1 * d.val = d.val; rw [(idx_facts t).2.2.2.1]; omega

/-- The value block's entry `(j, c')` is the values' entry `((t % 4)·2048 + j, c')`. -/
theorem vblk_at (c : Dev nD) (t : Fin cfg0.N) (j : Fin 2048) (c' : Fin 5) (h : t.val % 4 * 2048 + j.val < 8192) :
    vblk m c t (ix2 j c') = wArr m c (ix2 ⟨t.val % 4 * 2048 + j.val, h⟩ c') := by
  unfold vblk iblk
  rw [View.read_apply]
  show wArr m c _ = wArr m c _
  refine congrArg (wArr m c) (funext fun a => Fin.ext ?_)
  match a with
  | ⟨0, _⟩ => show win0_2.index t 0 * 2048 + 1 * j.val = t.val % 4 * 2048 + j.val; rw [(idx_facts t).2.2.2.2.1]; omega
  | ⟨1, _⟩ => show win0_2.index t 1 * 5 + 1 * c'.val = c'.val; rw [(idx_facts t).2.2.2.2.2.1]; omega

end Cert.KernelIdeal.Blocks

end
-- ==== Proof.LibDenseNT.lean ====
/-
  A matrix product against a transposed right operand, on the extended reals, index by index.

  `[M, K] × [N, K] → [M, N]`, both operands contracted along their second axis (the `q · kᵀ` of attention scores, written
  without materialising the transpose): entry `(p, q)` is `∑ k, x(p, k) · w(q, k)`.  Stated for the matrix unit's product into
  a zero accumulator, at any contraction precision, and for the host's general dot product.  No finiteness is needed: only
  the definitions of the operations and a re-indexing of the sum.
-/
import Idealize.ShloMosaic.PureOps.Ideal
import Idealize.ShloMosaic.PureOps.Ideal.Laws
import Idealize.ShloMosaic.Lib.ValueIdx

noncomputable section

namespace Cert.Lib.DenseNT

open Idealize.ShloMosaic Idealize.ShloMosaic.ValueIdx
open scoped BigOperators

/-- Row `p` of `x` against row `q` of `w`. -/
def rowRowDot {M K N : ℕ} (x : (⟨2, ![M, K]⟩ : Shape).Idx → EReal) (w : (⟨2, ![N, K]⟩ : Shape).Idx → EReal)
    (p : Fin M) (q : Fin N) : EReal :=
  ∑ k : Fin K, x (ix2 p k) * w (ix2 q k)

variable {M K N : ℕ} (D : DotDims ⟨2, ![M, K]⟩ ⟨2, ![N, K]⟩ ⟨2, ![M, N]⟩)
  (hlc : D.lhsContracting = [1]) (hrc : D.rhsContracting = [1])
  (hln : D.lhsNonContracting = [0]) (hrn : D.rhsNonContracting = [0])
  (hlb : D.lhsBatch = []) (hrb : D.rhsBatch = [])

include hlc in
theorem nt_rank : D.contr.rank = 1 := by rw [D.rank_contr, hlc]; rfl

include hlc in
theorem nt_size : D.contr.size ⟨0, by rw [nt_rank D hlc]; exact Nat.one_pos⟩ = K := by
  have := D.size_contr 0 (by rw [hlc]; exact Nat.one_pos)
  rw [this]
  simp [hlc]

include hln hlb in
/-- The left operand's free coordinate is the result's row. -/
theorem nt_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate, its first, is the result's column. -/
theorem nt_rhs0 (j : (⟨2, ![M, N]⟩ : Shape).Idx) (k : D.contr.Idx) : (D.rhsIdx j k 0).val = (j 1).val := by
  have hb : (0 : Fin 2) ∉ D.rhsBatch := by rw [hrb]; simp
  have hn : (0 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction at entry `(p, q)` is row `p` of `x` against row `q` of `w`. -/
theorem nt_sum (f : (⟨2, ![M, K]⟩ : Shape).Idx → EReal) (g : (⟨2, ![N, K]⟩ : Shape).Idx → EReal) (p : Fin M) (q : Fin N) :
    ∑ k : D.contr.Idx, f (D.lhsIdx (ix2 p q) k) * g (D.rhsIdx (ix2 p q) k) = rowRowDot f g p q := by
  unfold rowRowDot
  rw [← Equiv.sum_comp (contrEquiv1 D K (nt_rank D hlc) (nt_size D hlc)).symm]
  refine Finset.sum_congr rfl fun k _ => ?_
  have hk := contrEquiv1_symm_val D K (nt_rank D hlc) (nt_size D hlc) k
  have el : D.lhsIdx (ix2 p q) ((contrEquiv1 D K (nt_rank D hlc) (nt_size D hlc)).symm k) = ix2 p k := by
    funext a; apply Fin.ext
    match a with
    | ⟨0, _⟩ => exact nt_lhs0 D hln hlb (ix2 p q) _
    | ⟨1, _⟩ => exact (D.lhsIdx_val_of_single hlc (ix2 p q) _).trans hk
  have er : D.rhsIdx (ix2 p q) ((contrEquiv1 D K (nt_rank D hlc) (nt_size D hlc)).symm k) = ix2 q k := by
    funext a; apply Fin.ext
    match a with
    | ⟨0, _⟩ => exact nt_rhs0 D hln hrn hlb hrb (ix2 p q) _
    | ⟨1, _⟩ => exact (D.rhsIdx_val_of_single hrc (ix2 p q) _).trans hk
  rw [el, er]

include hlc hrc hln hrn hlb hrb in
/-- The matrix unit's product into a zero accumulator, at entry `(p, q)`, whatever the contraction precision. -/
theorem matmul_zero_at {φ₁ φ₂ : FTy} (prec : Option ContractPrecision) (x : FVec Ideal ⟨2, ![M, K]⟩ φ₁) (w : FVec Ideal ⟨2, ![N, K]⟩ φ₂)
    (p : Fin M) (q : Fin N) :
    matmul D prec x w (constant ⟨2, ![M, N]⟩ .f32 0x00000000#32) (ix2 p q) = rowRowDot x w p q :=
  (Ideal.matmul_constant_zero_apply D prec x w (ix2 p q)).trans (nt_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![N, K]⟩ φ₂) (p : Fin M) (q : Fin N) :
    Host.dotGeneral D none x w (ix2 p q) = rowRowDot x w p q :=
  (Ideal.dotGeneral_apply D none .single x w (ix2 p q)).trans (nt_sum D hlc hrc hln hrn hlb hrb x w p q)

end Cert.Lib.DenseNT

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.LibMinMaxInf.lean ====
/-
  `<minimumf>` and `<maximumf>` reductions read at the ideal instance as infima and suprema.

  Over the extended reals `minimumf` is `min` and `maximumf` is `max`, so a reduction from an initial value `b` over a finite
  family `f` is `b ⊓ ⨅ f` (`b ⊔ ⨆ f`), whatever the order the program folds in. Stated here for a kernel's
  `vector.multi_reduction` over one axis and for the host's one-operand `stablehlo.reduce` over one axis, at any rank and extents,
  with the two literals such reductions start from (`+inf` is `⊤`, `-inf` is `⊥`). A kernel that reduces lanes, then rows, then
  keeps a running minimum across grid points computes the same infimum as one reduction over the flattened axis: the last
  lemmas re-index an infimum through a bijection, over a product, and over `Fin (m * n)` as `Fin m × Fin n`
  (row `i`, column `j` at `j + n * i`).
-/
import Idealize.ShloMosaic.PureOps.Ideal
import Idealize.ShloMosaic.PureOps.Ideal.Laws
import Idealize.ShloMosaic.PureOps.Reduce
import Idealize.ShloMosaic.PureOps.Contract

noncomputable section

namespace Cert.Lib.MinMaxInf

open Idealize.ShloMosaic

variable {φ : FTy}

/-- The f32 pattern of `+inf` is the top of the extended reals. -/
theorem ofBits_posInf_f32 : Ideal.ofBits .f32 0x7F800000#32 = (⊤ : EReal) := by simp [Ideal.ofBits, Ideal.ieee]
/-- The f32 pattern of `-inf` is the bottom of the extended reals. -/
theorem ofBits_negInf_f32 : Ideal.ofBits .f32 0xFF800000#32 = (⊥ : EReal) := by simp [Ideal.ofBits, Ideal.ieee]

open Classical in
/-- A fold of `min` from `b` over a finite family is `b` met with the family's infimum. -/
theorem fold_min_eq_inf {ι : Type*} (s : Finset ι) (b : EReal) (f : ι → EReal) : s.fold min b f = b ⊓ s.inf f := by
  induction s using Finset.induction_on with
  | empty => simp
  | insert a s ha ih => rw [Finset.fold_insert ha, Finset.inf_insert, ih]; exact inf_left_comm _ _ _

open Classical in
/-- A fold of `max` from `b` over a finite family is `b` joined with the family's supremum. -/
theorem fold_max_eq_sup {ι : Type*} (s : Finset ι) (b : EReal) (f : ι → EReal) : s.fold max b f = b ⊔ s.sup f := by
  induction s using Finset.induction_on with
  | empty => simp
  | insert a s ha ih => rw [Finset.fold_insert ha, Finset.sup_insert, ih]; exact sup_left_comm _ _ _

/-- A float `vector.multi_reduction <minimumf>` over one axis, at the ideal instance: the accumulator's value met with the
    infimum over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Ideal.ofBits φ acc ⊓ (Finset.univ : Finset (Fin (s.size a))).inf (src ∘ h.lift j) : EReal) := by
  rw [multiReduction_minimumf_eq_fold, h.fold_filter_drop_single _ _ src j]
  exact fold_min_eq_inf _ _ _

/-- A float `vector.multi_reduction <maximumf>` over one axis, at the ideal instance: the accumulator's value joined with the
    supremum over that axis's coordinates. -/
theorem multiReduction_maximumf_single {s t : Shape} {a : Fin s.rank} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Ideal.ofBits φ acc ⊔ (Finset.univ : Finset (Fin (s.size a))).sup (src ∘ h.lift j) : EReal) := by
  rw [multiReduction_maximumf_eq_fold, h.fold_filter_drop_single _ _ src j]
  exact fold_max_eq_sup _ _ _

/-- The host's `stablehlo.reduce` with a `minimum` body over one axis, at the ideal instance: the initial value met with
    the infimum over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (init (Shape.Idx.first hu) ⊓ (Finset.univ : Finset (Fin (s.size a))).inf (x ∘ h.lift j) : EReal) := by
  rw [Host.reduce_eq_fold_single (FloatOps.minimumf (F := Ideal) (φ := φ)) x init h' h hu j]
  exact fold_min_eq_inf _ _ _

/-- The host's `stablehlo.reduce` with a `maximum` body over one axis, at the ideal instance: the initial value joined with
    the supremum over that axis's coordinates. -/
theorem hostReduce_maximumf_single {s t u : Shape} {a : Fin s.rank} (x : FVec Ideal s φ) (init : FVec Ideal u φ)
    (h' : s.ReducesTo [a] t) (h : s.Reduces [a] t) (hu : 0 < u.numel) (j : t.Idx) :
    Host.reduce (FloatOps.maximumf (F := Ideal) (φ := φ)) x init h' hu j
      = (init (Shape.Idx.first hu) ⊔ (Finset.univ : Finset (Fin (s.size a))).sup (x ∘ h.lift j) : EReal) := by
  rw [Host.reduce_eq_fold_single (FloatOps.maximumf (F := Ideal) (φ := φ)) x init h' h hu j]
  exact fold_max_eq_sup _ _ _

/-! ## Re-indexing an infimum or a supremum -/

/-- An infimum over a finite type does not change under a bijection of the index. -/
theorem inf_comp_equiv {ι κ : Type*} [Fintype ι] [Fintype κ] (e : ι ≃ κ) (f : κ → EReal) :
    (Finset.univ : Finset ι).inf (f ∘ e) = (Finset.univ : Finset κ).inf f :=
  calc (Finset.univ : Finset ι).inf (f ∘ e) = ((Finset.univ : Finset ι).map e.toEmbedding).inf f := (Finset.inf_map (Finset.univ : Finset ι) e.toEmbedding f).symm
    _ = (Finset.univ : Finset κ).inf f := by rw [Finset.map_univ_equiv]

/-- A supremum over a finite type does not change under a bijection of the index. -/
theorem sup_comp_equiv {ι κ : Type*} [Fintype ι] [Fintype κ] (e : ι ≃ κ) (f : κ → EReal) :
    (Finset.univ : Finset ι).sup (f ∘ e) = (Finset.univ : Finset κ).sup f :=
  calc (Finset.univ : Finset ι).sup (f ∘ e) = ((Finset.univ : Finset ι).map e.toEmbedding).sup f := (Finset.sup_map (Finset.univ : Finset ι) e.toEmbedding f).symm
    _ = (Finset.univ : Finset κ).sup f := by rw [Finset.map_univ_equiv]

/-- The infimum over pairs is the infimum of the infima. -/
theorem inf_prod {ι κ : Type*} [Fintype ι] [Fintype κ] (f : ι × κ → EReal) :
    (Finset.univ : Finset (ι × κ)).inf f = (Finset.univ : Finset ι).inf fun a => (Finset.univ : Finset κ).inf fun b => f (a, b) := by
  rw [← Finset.univ_product_univ, Finset.inf_product_left]

/-- The supremum over pairs is the supremum of the suprema. -/
theorem sup_prod {ι κ : Type*} [Fintype ι] [Fintype κ] (f : ι × κ → EReal) :
    (Finset.univ : Finset (ι × κ)).sup f = (Finset.univ : Finset ι).sup fun a => (Finset.univ : Finset κ).sup fun b => f (a, b) := by
  rw [← Finset.univ_product_univ, Finset.sup_product_left]

/-- An infimum over `m * n` consecutive positions, taken row by row: position `j + n * i` is column `j` of row `i`
    (`finProdFinEquiv_apply_val`). What joins a reduction over a flattened axis to a reduction tile by tile. -/
theorem inf_fin_mul {m n : Nat} (f : Fin (m * n) → EReal) :
    (Finset.univ : Finset (Fin (m * n))).inf f
      = (Finset.univ : Finset (Fin m)).inf fun i => (Finset.univ : Finset (Fin n)).inf fun j => f (finProdFinEquiv (i, j)) := by
  rw [← inf_comp_equiv finProdFinEquiv f, inf_prod]; rfl

/-- A supremum over `m * n` consecutive positions, taken row by row. -/
theorem sup_fin_mul {m n : Nat} (f : Fin (m * n) → EReal) :
    (Finset.univ : Finset (Fin (m * n))).sup f
      = (Finset.univ : Finset (Fin m)).sup fun i => (Finset.univ : Finset (Fin n)).sup fun j => f (finProdFinEquiv (i, j)) := by
  rw [← sup_comp_equiv finProdFinEquiv f, sup_prod]; rfl

end Cert.Lib.MinMaxInf

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibSoftmaxRows.lean ====
/-
  The softmax of each row of a matrix, in its shifted form, on the extended reals, read at an index.

  For a row `s` of `b` extended reals the shifted softmax is
      softmaxRow s k = exp (s k − sup s) / ∑ k', exp (s k' − sup s),
  the supremum over the finite family, the quotient the extended reals' division.  A kernel computes it over an `[a, b]`
  tile with two lane reductions whose results are kept as a column `[a, 1]` and spread back over the `b` columns
  (`jnp.max(s, axis=-1, keepdims=True)`, `jnp.sum(p, axis=-1, keepdims=True)`): this file reads that chain at entry `(r, k)`
  as `softmaxRow` of row `r`.  Also here: a row maximum from `-inf` is the row's supremum, for the kernel's lane
  reduction of a matrix and for the host's reduction of a rank-3 array along its last axis; and a reduced vector kept
  as a column and spread over the columns reads, at `(r, k)`, the vector's entry `r`.  No finiteness is needed.
-/
import proofs.«120942_j28905129902584_2_alg».proof.Proof.LibMinMaxInf
import proofs.«120942_j28905129902584_2_alg».proof.Proof.LibKeepdims

noncomputable section

namespace Cert.Lib.SoftmaxRows

open Idealize.ShloMosaic Idealize.ShloMosaic.ValueIdx
open scoped BigOperators

/-- The shifted softmax of a finite family of extended reals. -/
def softmaxRow {b : ℕ} (s : Fin b → EReal) (k : Fin b) : EReal :=
  Ideal.div (Ideal.exp (s k - (Finset.univ : Finset (Fin b)).sup s))
    (∑ k' : Fin b, Ideal.exp (s k' - (Finset.univ : Finset (Fin b)).sup s))

/-- A vector `[a]` kept as a column `[a, 1]` and spread over `b` columns reads, at `(r, k)`, its entry `r`. -/
theorem spread_apply {α : Type} {a b : ℕ} (v : (⟨1, ![a]⟩ : Shape).Idx → α)
    (hcast : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ v hcast) hb (ix2 r k) = v (ix1 r) :=
  (Cert.Lib.Keepdims.broadcastTo_a1_ab_apply _ hb r k).trans (Cert.Lib.Keepdims.shapeCast_a_a1_apply v hcast r 0)

/-- The lane maximum of an `[a, b]` matrix along its second axis, started from `-inf`, is at row `i` the supremum of that
    row's entries. -/
theorem rowMax_apply {a b : ℕ} (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = FKind.maximumf.neutral .f32 hφ) (i : Fin a) :
    multiReduction .maximumf [(1 : Fin 2)] ⟨1, ![a]⟩ src 0xFF800000#32 h hφ hacc (ix1 i)
      = (Finset.univ : Finset (Fin b)).sup fun k => src (ix2 i k) := by
  refine (Cert.Lib.MinMaxInf.multiReduction_maximumf_single src _ h hφ hacc (ix1 i)).trans ?_
  rw [Cert.Lib.MinMaxInf.ofBits_negInf_f32, bot_sup_eq]
  exact Finset.sup_congr rfl fun k _ => congrArg src (funext fun c => Fin.ext (by
    match c with
    | ⟨0, _⟩ => rfl
    | ⟨1, _⟩ => rfl))

/-- The host's maximum of an `[n, a, b]` array along its last axis, started from `-inf`, is at `(p, i)` the supremum of the
    entries `(p, i, k)`. -/
theorem hostMaxLast3_apply {n a b : ℕ} {u : Shape} (x : FVec Ideal ⟨3, ![n, a, b]⟩ .f32) (init : FVec Ideal u .f32)
    (h' : (⟨3, ![n, a, b]⟩ : Shape).ReducesTo [(2 : Fin 3)] ⟨2, ![n, a]⟩)
    (h : (⟨3, ![n, a, b]⟩ : Shape).Reduces [(2 : Fin 3)] ⟨2, ![n, a]⟩) (hu : 0 < u.numel)
    (hinit : init (Shape.Idx.first hu) = Ideal.ofBits .f32 0xFF800000#32) (p : Fin n) (i : Fin a) :
    Host.reduce (FloatOps.maximumf (F := Ideal) (φ := .f32)) x init h' hu (ix2 p i)
      = (Finset.univ : Finset (Fin b)).sup fun k => x (ix3 p i k) := by
  refine (Cert.Lib.MinMaxInf.hostReduce_maximumf_single x init h' h hu (ix2 p i)).trans ?_
  rw [hinit, Cert.Lib.MinMaxInf.ofBits_negInf_f32, bot_sup_eq]
  exact Finset.sup_congr rfl fun k _ => congrArg x (funext fun c => Fin.ext (by
    match c with
    | ⟨0, _⟩ => rfl
    | ⟨1, _⟩ => rfl
    | ⟨2, _⟩ => rfl))

/-- The kernel's softmax of each row of an `[a, b]` tile — the row maxima and the row sums of the exponentials each kept
    as a column and spread back over the columns — reads, at `(r, k)`, the shifted softmax of row `r` at `k`. -/
theorem softmax_apply {a b : ℕ} (s : FVec Ideal ⟨2, ![a, b]⟩ .f32)
    (hred : (⟨2, ![a, b]⟩ : Shape).Reduces [(1 : Fin 2)] ⟨1, ![a]⟩)
    (hcast : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) (r : Fin a) (k : Fin b) :
    divf
      (exp (subf s (broadcastTo ⟨2, ![a, b]⟩ (shapeCast ⟨2, ![a, 1]⟩
        (multiReduction .maximumf [(1 : Fin 2)] ⟨1, ![a]⟩ s 0xFF800000#32 hred hφ hmax) hcast) hb)))
      (broadcastTo ⟨2, ![a, b]⟩ (shapeCast ⟨2, ![a, 1]⟩
        (multiReduction .add [(1 : Fin 2)] ⟨1, ![a]⟩
          (exp (subf s (broadcastTo ⟨2, ![a, b]⟩ (shapeCast ⟨2, ![a, 1]⟩
            (multiReduction .maximumf [(1 : Fin 2)] ⟨1, ![a]⟩ s 0xFF800000#32 hred hφ hmax) hcast) hb)))
          0x00000000#32 hred hφ hadd) hcast) hb)
      (ix2 r k)
    = softmaxRow (fun k' => s (ix2 r k')) k := by
  have hmx : ∀ k' : Fin b, (broadcastTo ⟨2, ![a, b]⟩ (shapeCast ⟨2, ![a, 1]⟩
      (multiReduction .maximumf [(1 : Fin 2)] ⟨1, ![a]⟩ s 0xFF800000#32 hred hφ hmax) hcast) hb) (ix2 r k')
        = (Finset.univ : Finset (Fin b)).sup fun k'' => s (ix2 r k'') :=
    fun k' => (spread_apply _ hcast hb r k').trans (rowMax_apply s hred hφ hmax r)
  generalize (broadcastTo ⟨2, ![a, b]⟩ (shapeCast ⟨2, ![a, 1]⟩
      (multiReduction .maximumf [(1 : Fin 2)] ⟨1, ![a]⟩ s 0xFF800000#32 hred hφ hmax) hcast) hb) = MX at hmx ⊢
  have he : ∀ k' : Fin b, exp (subf s MX) (ix2 r k')
      = Ideal.exp (s (ix2 r k') - (Finset.univ : Finset (Fin b)).sup fun k'' => s (ix2 r k'')) := fun k' => by
    show Ideal.exp (s (ix2 r k') - MX (ix2 r k')) = _
    rw [hmx k']
  have hs : (broadcastTo ⟨2, ![a, b]⟩ (shapeCast ⟨2, ![a, 1]⟩
      (multiReduction .add [(1 : Fin 2)] ⟨1, ![a]⟩ (exp (subf s MX)) 0x00000000#32 hred hφ hadd) hcast) hb) (ix2 r k)
        = ∑ k' : Fin b, exp (subf s MX) (ix2 r k') :=
    (spread_apply _ hcast hb r k).trans (Cert.Lib.Keepdims.rowSum_apply (exp (subf s MX)) 0x00000000#32 hred hφ hadd r)
  show Ideal.div (exp (subf s MX) (ix2 r k)) _ = _
  rw [hs, he k]
  unfold softmaxRow
  exact congrArg (Ideal.div _) (Finset.sum_congr rfl fun k' _ => he k')

end Cert.Lib.SoftmaxRows

end
-- ==== Proof.Payloads.lean ====
/-
  The step's values, entry by entry, on the extended reals.

  With `q` a [1024, 4] block of queries, `k` a [2048, 4] block of keys, `v` a [2048, 5] block of values (the fifth
  column all ones), `mx` the running maximum and `acc` the running accumulator before the step:
      scores (r, j)      = ∑ d, q (r, d) · k (j, d)
      newmax r           = max (mx r) (sup over j of scores (r, j))
      newacc (r, c)      = exp (mx r − newmax r) · acc (r, c) + ∑ j, exp (scores (r, j) − newmax r) · v (j, c)
      output (r, d)      = acc (r, d) / acc (r, 4)
  The narrowings to bf16 before the two matrix products are the identity here, a matrix product into a zero
  accumulator is the plain sum of products, and the lane maximum started from −∞ is the supremum of the row.
-/
import proofs.«120942_j28905129902584_2_alg».proof.Proof.Gen.KernelIdeal.Skeleton
import proofs.«120942_j28905129902584_2_alg».proof.Proof.LibDenseNT
import proofs.«120942_j28905129902584_2_alg».proof.Proof.LibDense
import proofs.«120942_j28905129902584_2_alg».proof.Proof.LibSoftmaxRows
import Idealize.ShloMosaic.Lib.ValueIdx
import Idealize.ShloMosaic.Lib.Pipeline.Value

noncomputable section

namespace Cert.KernelIdeal.Payloads

open Cert.KernelIdeal Cert.KernelIdeal.Gen Idealize.ShloMosaic Idealize.ShloMosaic.ValueIdx
open scoped BigOperators

/-- The score of query row `r` against key row `j`. -/
theorem scores_at (q : Vec Ideal S1024x4 .f32) (k : Vec Ideal S2048x4 .f32) (r : Fin 1024) (j : Fin 2048) :
    k0_pay4 (F := Ideal) q k (ix2 r j) = ∑ d : Fin 4, q (ix2 r d) * k (ix2 j d) := by
  unfold k0_pay4
  simp only [shapeCast_self]
  exact Cert.Lib.DenseNT.matmul_zero_at dot_S1024x4_S2048x4_S1024x2048_1_1_0_0_n_n rfl rfl rfl rfl rfl rfl none _ _ r j

/-- The new running maximum of row `r`: the old one joined with the supremum of the row's scores. -/
theorem newmax_at (q : Vec Ideal S1024x4 .f32) (k : Vec Ideal S2048x4 .f32) (mx : Vec Ideal S1024x1 .f32) (r : Fin 1024) :
    k0_pay5 (F := Ideal) q k mx (ix2 r (0 : Fin 1))
      = max (mx (ix2 r (0 : Fin 1))) ((Finset.univ : Finset (Fin 2048)).sup fun j => k0_pay4 (F := Ideal) q k (ix2 r j)) := by
  unfold k0_pay5
  refine (maximumf_apply _ _ _).trans (congrArg (max (mx (ix2 r (0 : Fin 1)))) ?_)
  exact (Cert.Lib.Keepdims.shapeCast_a_a1_apply _ _ r 0).trans (Cert.Lib.SoftmaxRows.rowMax_apply _ _ _ _ r)

/-- The stored maximum is the new running maximum. -/
theorem stored_max (q : Vec Ideal S1024x4 .f32) (k : Vec Ideal S2048x4 .f32) (mx : Vec Ideal S1024x1 .f32) :
    k0_pay7 (F := Ideal) q k mx = k0_pay5 (F := Ideal) q k mx := by
  unfold k0_pay7
  exact shapeCast_self _ _

/-- The new accumulator at `(r, c)`: the old one rescaled, plus the tile's exponentials against column `c` of the
    values. -/
theorem newacc_at (q : Vec Ideal S1024x4 .f32) (k : Vec Ideal S2048x4 .f32) (v : Vec Ideal S2048x5 .f32)
    (mx : Vec Ideal S1024x1 .f32) (acc : Vec Ideal S1024x5 .f32) (r : Fin 1024) (c : Fin 5) :
    k0_pay6 (F := Ideal) q k v mx acc (ix2 r c)
      = Ideal.exp (mx (ix2 r (0 : Fin 1)) - k0_pay5 (F := Ideal) q k mx (ix2 r (0 : Fin 1))) * acc (ix2 r c)
        + ∑ j : Fin 2048, Ideal.exp (k0_pay4 (F := Ideal) q k (ix2 r j) - k0_pay5 (F := Ideal) q k mx (ix2 r (0 : Fin 1)))
            * v (ix2 j c) := by
  unfold k0_pay6
  simp only [shapeCast_self]
  refine (addf_apply _ _ _).trans (congrArg₂ (· + ·) ?_ ?_)
  · refine (mulf_apply _ _ _).trans (congrArg (· * acc (ix2 r c)) ?_)
    exact Cert.Lib.Keepdims.broadcastTo_a1_ab_apply _ _ r c
  · refine (Cert.Lib.Dense.matmul_zero_at dot_S1024x2048_S2048x5_S1024x5_1_0_0_1_n_n rfl rfl rfl rfl rfl rfl _ _ r c).trans ?_
    unfold Cert.Lib.Dense.rowDot
    refine Finset.sum_congr rfl fun j _ => congrArg (· * v (ix2 j c)) ?_
    show Ideal.exp (k0_pay4 (F := Ideal) q k (ix2 r j) - broadcastTo S1024x2048 (k0_pay5 (F := Ideal) q k mx) _ (ix2 r j)) = _
    rw [Cert.Lib.Keepdims.broadcastTo_a1_ab_apply _ _ r j]

/-- The output at `(r, d)`: value column `d` of the accumulator over its denominator column. -/
theorem out_at (acc : Vec Ideal S1024x5 .f32) (r : Fin 1024) (d : Fin 4) :
    k0_pay1 (F := Ideal) acc (ix2 r d) = Ideal.div (acc (ix2 r (Fin.castSucc d))) (acc (ix2 r (4 : Fin 5))) := by
  unfold k0_pay1
  refine (divf_apply _ _ _).trans (congrArg₂ Ideal.div ?_ ?_)
  · exact extractStridedSlice_apply _ _ _ _ _ (fun a => by
      match a with
      | ⟨0, _⟩ => show r.val = 0 + r.val; omega
      | ⟨1, _⟩ => show d.val = 0 + d.val; omega)
  · refine (Cert.Lib.Keepdims.broadcastTo_a1_ab_apply _ _ r d).trans ?_
    exact extractStridedSlice_apply _ _ _ _ _ (fun a => by
      match a with
      | ⟨0, _⟩ => show r.val = 0 + r.val; omega
      | ⟨1, _⟩ => show 4 = 4 + 0; rfl)

/-- The first fill of the running maximum, at any entry: the large negative literal. -/
theorem fill_max_at (i : S1024x1.Idx) : k0_pay2 (F := Ideal) i = Ideal.ofBits .f32 0xFF333332#32 := by
  unfold k0_pay2
  simp only [shapeCast_self]
  rfl

/-- The first fill of the accumulator, at any entry: zero. -/
theorem fill_acc_at (i : S1024x5.Idx) : k0_pay3 (F := Ideal) i = 0 := by
  unfold k0_pay3
  simp only [shapeCast_self]
  exact Ideal.ofBits_zero_f32

end Cert.KernelIdeal.Payloads

end
-- ==== Proof.OnlineSoftmax.lean ====
/-
  The online softmax over the reals, and its reading on the extended reals at finite entries.

  For scores `s n` and weights `w n` (n < N) write, for a real shift `μ`,
      num μ = ∑ n, exp (s n − μ) · w n        den μ = ∑ n, exp (s n − μ).
  Three facts carry the whole equivalence:
    • one step of the running accumulation: `exp (μ − μ') · (sum over the first N at shift μ) + (the next B terms at
      shift μ')` is the sum over the first N + B at shift μ' — because exp (μ − μ') · exp (s − μ) = exp (s − μ');
    • the quotient num μ / den μ does not depend on the shift μ — exp (−μ) is a non-zero common factor;
    • the weighted softmax ∑ n, (exp (s n − M) / den M) · w n is that same quotient.
  On the extended reals the same step, at entries that are real numbers, is the coercion of the real step: the
  exponential of a real is the real exponential, and sums and products of coercions are coercions.  The running maximum
  of finitely many reals joined to a real is again a real — all the step needs of it.
-/
import Idealize.ShloMosaic.PureOps.Ideal

noncomputable section

namespace Cert.Attn

open Idealize.ShloMosaic
open scoped BigOperators

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real joined with the supremum of finitely many reals is a real. -/
theorem exists_real_sup {ι : Type*} (s : Finset ι) (μ : ℝ) (σ : ι → ℝ) :
    ∃ r : ℝ, max (μ : EReal) (s.sup fun j => (σ j : EReal)) = (r : EReal) := by
  classical
  induction s using Finset.induction_on with
  | empty => exact ⟨μ, by simp⟩
  | insert a s ha ih =>
    obtain ⟨r, hr⟩ := ih
    refine ⟨max (σ a) r, ?_⟩
    rw [Finset.sup_insert, (EReal.coe_strictMono.monotone.map_max : ((max (σ a) r : ℝ) : EReal) = _), ← hr]
    exact max_left_comm _ _ _

/-- The supremum of a non-empty finite family of reals is a real. -/
theorem exists_real_sup_univ {n : ℕ} (σ : Fin (n + 1) → ℝ) :
    ∃ r : ℝ, (Finset.univ.sup fun j => (σ j : EReal)) = (r : EReal) := by
  obtain ⟨r, hr⟩ := exists_real_sup (Finset.univ : Finset (Fin (n + 1))) (σ 0) σ
  refine ⟨r, ?_⟩
  rw [← hr]
  exact (max_eq_right (Finset.le_sup (f := fun j => (σ j : EReal)) (Finset.mem_univ 0))).symm

/-- ONE STEP on the extended reals, at real entries: the rescaled accumulator plus the tile's contribution is the
    coercion of the same expression over the reals. -/
theorem step_coe {ι : Type*} (s : Finset ι) (μ μ' A : ℝ) (σ ω : ι → ℝ) :
    Ideal.exp ((μ : EReal) - (μ' : EReal)) * (A : EReal)
        + ∑ j ∈ s, Ideal.exp ((σ j : EReal) - (μ' : EReal)) * (ω j : EReal)
      = ((Real.exp (μ - μ') * A + ∑ j ∈ s, Real.exp (σ j - μ') * ω j : ℝ) : EReal) := by
  simp only [← EReal.coe_sub, Ideal.exp_coe, ← EReal.coe_mul, ← coe_sum, ← EReal.coe_add]

/-- ONE STEP over the reals: rescaling the first `N` terms from shift `μ` to `μ'` and adding the next `B` terms
    at shift `μ'` gives the first `N + B` terms at shift `μ'`. -/
theorem step_real (μ μ' : ℝ) (N B : ℕ) (s w : ℕ → ℝ) :
    Real.exp (μ - μ') * (∑ n ∈ Finset.range N, Real.exp (s n - μ) * w n)
        + ∑ j ∈ Finset.range B, Real.exp (s (N + j) - μ') * w (N + j)
      = ∑ n ∈ Finset.range (N + B), Real.exp (s n - μ') * w n := by
  rw [Finset.sum_range_add, Finset.mul_sum]
  refine congrArg₂ (· + ·) (Finset.sum_congr rfl fun n _ => ?_) rfl
  rw [← mul_assoc, ← Real.exp_add]
  congr 2
  ring

/-- The quotient of the two shifted sums does not depend on the shift. -/
theorem quotient_shift (μ : ℝ) (N : ℕ) (s w : ℕ → ℝ) :
    (∑ n ∈ Finset.range N, Real.exp (s n - μ) * w n) / (∑ n ∈ Finset.range N, Real.exp (s n - μ))
      = (∑ n ∈ Finset.range N, Real.exp (s n) * w n) / (∑ n ∈ Finset.range N, Real.exp (s n)) := by
  have h : ∀ n, Real.exp (s n - μ) = Real.exp (s n) * Real.exp (-μ) := fun n => by
    rw [← Real.exp_add]; rfl
  simp only [h]
  rw [← Finset.sum_mul]
  have h2 : ∀ n, Real.exp (s n) * Real.exp (-μ) * w n = Real.exp (s n) * w n * Real.exp (-μ) := fun n => by ring
  simp only [h2]
  rw [← Finset.sum_mul]
  exact mul_div_mul_right _ _ (Real.exp_ne_zero _)

/-- The weighted softmax is that quotient. -/
theorem softmax_weighted (M : ℝ) (N : ℕ) (s w : ℕ → ℝ) :
    ∑ n ∈ Finset.range N, Real.exp (s n - M) / (∑ l ∈ Finset.range N, Real.exp (s l - M)) * w n
      = (∑ n ∈ Finset.range N, Real.exp (s n) * w n) / (∑ n ∈ Finset.range N, Real.exp (s n)) := by
  simp only [div_mul_eq_mul_div]
  rw [← Finset.sum_div]
  exact quotient_shift M N s w

/-- A sum of exponentials over a non-empty range is positive. -/
theorem den_pos (μ : ℝ) (N : ℕ) (hN : 0 < N) (s : ℕ → ℝ) : 0 < ∑ n ∈ Finset.range N, Real.exp (s n - μ) :=
  Finset.sum_pos (fun n _ => Real.exp_pos _) ⟨0, Finset.mem_range.mpr hN⟩

/-- The quotient of two real coercions by the extended reals' division, off a zero divisor. -/
theorem div_coe_coe (a b : ℝ) (hb : b ≠ 0) : Ideal.div (a : EReal) (b : EReal) = ((a / b : ℝ) : EReal) := by
  rw [Ideal.div_coe hb, ← EReal.coe_mul]
  congr 1
  rw [mul_one_div]

end Cert.Attn

end
-- ==== Proof.RealEntries.lean ====
/-
  Arrays of extended reals whose entries are all real numbers, read as real arrays.

  `IsReal x` says every entry of `x` is (the coercion of) a real.  For a matrix `x` of extended reals `rOf x n d` is its
  entry `(n, d)` as a real, with the row index a natural number (zero past the last row), so that sums over
  consecutive rows are sums over `Finset.range`.  `score Q K i n` is the dot product of row `i` of `Q` with row `n` of
  `K` over the reals.  Sums, products and a gather of rows keep entries real.
-/
import proofs.«120942_j28905129902584_2_alg».proof.Proof.OnlineSoftmax
import Idealize.ShloMosaic.Lib.ValueIdx

noncomputable section

namespace Cert.Attn

open Idealize.ShloMosaic Idealize.ShloMosaic.ValueIdx
open scoped BigOperators

/-- Every entry is a real number. -/
def IsReal {ι : Type*} (x : ι → EReal) : Prop := ∀ i, ∃ r : ℝ, x i = (r : EReal)

/-- Entry `(n, d)` of a matrix of extended reals, as a real; zero past the last row. -/
def rOf {a b : ℕ} (x : (⟨2, ![a, b]⟩ : Shape).Idx → EReal) (n : ℕ) (d : Fin b) : ℝ :=
  if h : n < a then (x (ix2 ⟨n, h⟩ d)).toReal else 0

theorem rOf_eq {a b : ℕ} {x : (⟨2, ![a, b]⟩ : Shape).Idx → EReal} (hx : IsReal x) (i : Fin a) (d : Fin b) :
    x (ix2 i d) = ((rOf x i.val d : ℝ) : EReal) := by
  unfold rOf
  rw [dif_pos i.isLt]
  obtain ⟨r, hr⟩ := hx (ix2 ⟨i.val, i.isLt⟩ d)
  rw [show (⟨i.val, i.isLt⟩ : Fin a) = i from rfl] at hr ⊢
  rw [hr, EReal.toReal_coe]

theorem rOf_eq_of_lt {a b : ℕ} {x : (⟨2, ![a, b]⟩ : Shape).Idx → EReal} (hx : IsReal x) (n : ℕ) (h : n < a) (d : Fin b) :
    x (ix2 ⟨n, h⟩ d) = ((rOf x n d : ℝ) : EReal) := rOf_eq hx ⟨n, h⟩ d

/-- If the entries of `x` are the coercions of `f`, the real reading of `x` is `f`. -/
theorem rOf_of_coe {a b : ℕ} {x : (⟨2, ![a, b]⟩ : Shape).Idx → EReal} (n : ℕ) (h : n < a) (d : Fin b) (f : ℝ)
    (hf : x (ix2 ⟨n, h⟩ d) = (f : EReal)) : rOf x n d = f := by
  unfold rOf
  rw [dif_pos h, hf, EReal.toReal_coe]

/-- Row `i` of `Q` against row `n` of `K`, over the reals. -/
def score {a b : ℕ} (Q K : (⟨2, ![a, b]⟩ : Shape).Idx → EReal) (i n : ℕ) : ℝ := ∑ d : Fin b, rOf Q i d * rOf K n d

theorem isReal_mul {ι : Type*} {x y : ι → EReal} (hx : IsReal x) (hy : IsReal y) : IsReal fun i => x i * y i := fun i => by
  obtain ⟨a, ha⟩ := hx i; obtain ⟨b, hb⟩ := hy i
  exact ⟨a * b, by show x i * y i = _; rw [ha, hb, EReal.coe_mul]⟩

theorem isReal_add {ι : Type*} {x y : ι → EReal} (hx : IsReal x) (hy : IsReal y) : IsReal fun i => x i + y i := fun i => by
  obtain ⟨a, ha⟩ := hx i; obtain ⟨b, hb⟩ := hy i
  exact ⟨a + b, by show x i + y i = _; rw [ha, hb, EReal.coe_add]⟩

/-- A finite sum of reals is a real. -/
theorem exists_real_sum {κ : Type*} (s : Finset κ) (f : κ → EReal) (hf : ∀ k, ∃ r : ℝ, f k = (r : EReal)) :
    ∃ r : ℝ, ∑ k ∈ s, f k = (r : EReal) := by
  choose g hg using hf
  exact ⟨∑ k ∈ s, g k, by rw [coe_sum]; exact Finset.sum_congr rfl fun k _ => hg k⟩

/-- The attention output over the reals, from real readings of the three arrays (queries already scaled, values with a
    last column of ones): row `i`, value column `d` is
    `(∑ k, exp (score i k) · W (k, d)) / (∑ k, exp (score i k))` over the 8192 key rows. -/
def attnReal (Q K : (⟨2, ![8192, 4]⟩ : Shape).Idx → EReal) (W : (⟨2, ![8192, 5]⟩ : Shape).Idx → EReal) (i : ℕ) (d : Fin 4) : ℝ :=
  (∑ k ∈ Finset.range 8192, Real.exp (score Q K i k) * rOf W k (Fin.castSucc d))
    / (∑ k ∈ Finset.range 8192, Real.exp (score Q K i k))

end Cert.Attn

end
-- ==== Proof.Step.lean ====
/-
  One step of the online softmax at real entries.

  Let the three input blocks be rows `qi·1024 + r` of the queries `Q`, rows `kv·2048 + j` of the keys `K` and of the
  values `W`, all with real entries, and suppose that before the step the running maximum of row `r` is a real `μ r` and
  the accumulator holds the partial sums over the first `kv·2048` key rows at shift `μ r`:
      acc (r, c) = ∑ n < kv·2048, exp (score (qi·1024 + r) n − μ r) · W (n, c).
  Then after the step the running maximum is again a real `μ' r`, and the accumulator holds the partial sums over the
  first `kv·2048 + 2048` key rows at shift `μ' r`.  Which real the new maximum is does not matter.
  At the last step the output is the quotient of the accumulator's value column by its denominator column.
-/
import proofs.«120942_j28905129902584_2_alg».proof.Proof.Payloads
import proofs.«120942_j28905129902584_2_alg».proof.Proof.RealEntries

noncomputable section

namespace Cert.KernelIdeal.Step

open Cert.KernelIdeal Cert.KernelIdeal.Gen Cert.KernelIdeal.Payloads Cert.Attn
open Idealize.ShloMosaic Idealize.ShloMosaic.ValueIdx
open scoped BigOperators

theorem step (Q K : (⟨2, ![8192, 4]⟩ : Shape).Idx → EReal) (W : (⟨2, ![8192, 5]⟩ : Shape).Idx → EReal) (qi kv : ℕ)
    (x0 : Vec Ideal S1024x4 .f32) (x1 : Vec Ideal S2048x4 .f32) (x2 : Vec Ideal S2048x5 .f32)
    (mx : Vec Ideal S1024x1 .f32) (acc : Vec Ideal S1024x5 .f32)
    (hx0 : ∀ (r : Fin 1024) (d : Fin 4), x0 (ix2 r d) = ((rOf Q (qi * 1024 + r.val) d : ℝ) : EReal))
    (hx1 : ∀ (j : Fin 2048) (d : Fin 4), x1 (ix2 j d) = ((rOf K (kv * 2048 + j.val) d : ℝ) : EReal))
    (hx2 : ∀ (j : Fin 2048) (c : Fin 5), x2 (ix2 j c) = ((rOf W (kv * 2048 + j.val) c : ℝ) : EReal))
    (μ : Fin 1024 → ℝ) (hmx : ∀ r : Fin 1024, mx (ix2 r (0 : Fin 1)) = ((μ r : ℝ) : EReal))
    (hacc : ∀ (r : Fin 1024) (c : Fin 5), acc (ix2 r c)
      = ((∑ n ∈ Finset.range (kv * 2048), Real.exp (score Q K (qi * 1024 + r.val) n - μ r) * rOf W n c : ℝ) : EReal)) :
    ∃ μ' : Fin 1024 → ℝ, (∀ r : Fin 1024, k0_pay5 (F := Ideal) x0 x1 mx (ix2 r (0 : Fin 1)) = ((μ' r : ℝ) : EReal)) ∧
      ∀ (r : Fin 1024) (c : Fin 5), k0_pay6 (F := Ideal) x0 x1 x2 mx acc (ix2 r c)
        = ((∑ n ∈ Finset.range (kv * 2048 + 2048), Real.exp (score Q K (qi * 1024 + r.val) n - μ' r) * rOf W n c : ℝ) : EReal) := by
  have hs : ∀ (r : Fin 1024) (j : Fin 2048), k0_pay4 (F := Ideal) x0 x1 (ix2 r j)
      = ((score Q K (qi * 1024 + r.val) (kv * 2048 + j.val) : ℝ) : EReal) := fun r j => by
    rw [scores_at]
    unfold score
    rw [coe_sum]
    exact Finset.sum_congr rfl fun d _ => by rw [hx0, hx1, EReal.coe_mul]
  have hm : ∀ r : Fin 1024, ∃ ρ : ℝ, k0_pay5 (F := Ideal) x0 x1 mx (ix2 r (0 : Fin 1)) = ((ρ : ℝ) : EReal) := fun r => by
    rw [newmax_at, hmx]
    simp only [hs]
    exact exists_real_sup _ (μ r) fun j : Fin 2048 => score Q K (qi * 1024 + r.val) (kv * 2048 + j.val)
  choose μ' hμ' using hm
  refine ⟨μ', hμ', fun r c => ?_⟩
  rw [newacc_at, hμ' r, hmx r, hacc r c]
  simp only [hs, hx2]
  refine (step_coe Finset.univ (μ r) (μ' r) _ (fun j : Fin 2048 => score Q K (qi * 1024 + r.val) (kv * 2048 + j.val))
    (fun j : Fin 2048 => rOf W (kv * 2048 + j.val) c)).trans (congrArg _ ?_)
  rw [Fin.sum_univ_eq_sum_range (fun j => Real.exp (score Q K (qi * 1024 + r.val) (kv * 2048 + j) - μ' r) * rOf W (kv * 2048 + j) c) 2048]
  exact step_real (μ r) (μ' r) (kv * 2048) 2048 (fun n => score Q K (qi * 1024 + r.val) n) (fun n => rOf W n c)

/-- The last step's output at real entries: the quotient of two reals, off a zero denominator. -/
theorem out_real (acc : Vec Ideal S1024x5 .f32) (r : Fin 1024) (d : Fin 4) (A : Fin 5 → ℝ)
    (hacc : ∀ c : Fin 5, acc (ix2 r c) = ((A c : ℝ) : EReal)) (h4 : A 4 ≠ 0) :
    k0_pay1 (F := Ideal) acc (ix2 r d) = ((A (Fin.castSucc d) / A 4 : ℝ) : EReal) := by
  rw [out_at, hacc, hacc, div_coe_coe _ _ h4]

end Cert.KernelIdeal.Step

end
-- ==== Proof.Running.lean ====
/-
  The invariant of the online softmax over the grid, and the output block it ends in.

  Write `Q`, `K`, `W` for the kernel's three whole arrays (scaled queries, keys, values with a last column of ones), all
  with real entries.  After the body at point `n` (query block `n / 4`, tile `n % 4`), for every row `r` of the block,
  with `i = (n / 4)·1024 + r`:
      the running maximum is some real `μ r`, and
      acc (r, c) = ∑ k < (n % 4)·2048 + 2048, exp (score i k − μ r) · W (k, c).
  At a first tile this is one step from the fills (a real, and the empty sum); at any other tile it is one step from
  the invariant at `n − 1`, which has the same query block and one tile less.  At a last tile all 8192 key rows are in,
  the denominator column of `W` is one, and the output is
      (∑ k, exp (score i k) · W (k, d)) / (∑ k, exp (score i k)):
  the shift `μ r` cancels in the quotient.
-/
import proofs.«120942_j28905129902584_2_alg».proof.Proof.Blocks
import proofs.«120942_j28905129902584_2_alg».proof.Proof.Step

noncomputable section

open Idealize.ShloMosaic Idealize.ShloMosaic.TcCoe Idealize.SL.Sem Idealize.ShloMosaic.ValueIdx

namespace Cert.KernelIdeal.Running

open Cert.KernelIdeal Cert.KernelIdeal.Gen Cert.KernelIdeal.Carried Cert.KernelIdeal.Blocks Cert.KernelIdeal.Payloads Cert.Attn
open scoped BigOperators

variable (m : (ℓ : Loc nD τ sig) → Buf (Elt Ideal) ℓ) (c : Dev nD)

/-- The literal the running maximum starts from is a (large negative) real number. -/
theorem fill_real : ∃ ν : ℝ, Ideal.ofBits .f32 0xFF333332#32 = (ν : EReal) := by
  unfold Ideal.ofBits Ideal.ieee
  simp only []
  rw [if_neg (by decide), if_neg (by decide)]
  exact ⟨_, rfl⟩

/-- THE INVARIANT after every grid point. -/
theorem running (hQ : IsReal (qArr m c)) (hK : IsReal (kArr m c)) (hW : IsReal (wArr m c)) :
    ∀ (n : ℕ) (h : n < cfg0.N), ∃ μ : Fin 1024 → ℝ,
      (∀ r : Fin 1024, mxAt m c n h (ix2 r (0 : Fin 1)) = ((μ r : ℝ) : EReal)) ∧
      ∀ (r : Fin 1024) (c' : Fin 5), accAt m c n h (ix2 r c')
        = ((∑ k ∈ Finset.range (n % 4 * 2048 + 2048),
            Real.exp (score (qArr m c) (kArr m c) (n / 4 * 1024 + r.val) k - μ r) * rOf (wArr m c) k c' : ℝ) : EReal) := by
  intro n
  induction n using Nat.strong_induction_on with
  | _ n ih =>
    intro h
    have hN : cfg0.N = 32 := N_0
    have hn : n < 32 := hN ▸ h
    have hx0 : ∀ (r : Fin 1024) (d : Fin 4), qblk m c ⟨n, h⟩ (ix2 r d)
        = ((rOf (qArr m c) (n / 4 * 1024 + r.val) d : ℝ) : EReal) := fun r d => by
      have hb : n / 4 * 1024 + r.val < 8192 := by have := r.isLt; omega
      rw [qblk_at m c ⟨n, h⟩ r d hb]
      exact rOf_eq_of_lt hQ _ hb d
    have hx1 : ∀ (j : Fin 2048) (d : Fin 4), kblk m c ⟨n, h⟩ (ix2 j d)
        = ((rOf (kArr m c) (n % 4 * 2048 + j.val) d : ℝ) : EReal) := fun j d => by
      have hb : n % 4 * 2048 + j.val < 8192 := by have := j.isLt; omega
      rw [kblk_at m c ⟨n, h⟩ j d hb]
      exact rOf_eq_of_lt hK _ hb d
    have hx2 : ∀ (j : Fin 2048) (c' : Fin 5), vblk m c ⟨n, h⟩ (ix2 j c')
        = ((rOf (wArr m c) (n % 4 * 2048 + j.val) c' : ℝ) : EReal) := fun j c' => by
      have hb : n % 4 * 2048 + j.val < 8192 := by have := j.isLt; omega
      rw [vblk_at m c ⟨n, h⟩ j c' hb]
      exact rOf_eq_of_lt hW _ hb c'
    by_cases h0 : n % 4 = 0
    · obtain ⟨e1, e2⟩ := Carried.first m c ⟨n, h⟩ h0
      have e1' : mxAt m c n h = k0_pay7 (qblk m c ⟨n, h⟩) (kblk m c ⟨n, h⟩) (k0_pay2 (F := Ideal)) := e1
      have e2' : accAt m c n h = k0_pay6 (qblk m c ⟨n, h⟩) (kblk m c ⟨n, h⟩) (vblk m c ⟨n, h⟩) (k0_pay2 (F := Ideal)) (k0_pay3 (F := Ideal)) := e2
      obtain ⟨ν, hν⟩ := fill_real
      obtain ⟨μ', h5, h6⟩ := Step.step (qArr m c) (kArr m c) (wArr m c) (n / 4) (n % 4)
        (qblk m c ⟨n, h⟩) (kblk m c ⟨n, h⟩) (vblk m c ⟨n, h⟩) (k0_pay2 (F := Ideal)) (k0_pay3 (F := Ideal)) hx0 hx1 hx2
        (fun _ => ν) (fun r => (fill_max_at _).trans hν) (fun r c' => by rw [fill_acc_at, h0]; simp)
      refine ⟨μ', fun r => ?_, fun r c' => ?_⟩
      · rw [e1', stored_max]; exact h5 r
      · rw [e2']; exact h6 r c'
    · obtain ⟨e1, e2⟩ := Carried.next m c ⟨n, h⟩ h0
      have hp : n - 1 < cfg0.N := Nat.lt_of_le_of_lt (Nat.sub_le _ _) h
      have e1' : mxAt m c n h = k0_pay7 (qblk m c ⟨n, h⟩) (kblk m c ⟨n, h⟩) (mxAt m c (n - 1) hp) := e1
      have e2' : accAt m c n h = k0_pay6 (qblk m c ⟨n, h⟩) (kblk m c ⟨n, h⟩) (vblk m c ⟨n, h⟩) (mxAt m c (n - 1) hp)
          (accAt m c (n - 1) hp) := e2
      obtain ⟨μ, i1, i2⟩ := ih (n - 1) (by omega) hp
      have hq : (n - 1) / 4 = n / 4 := by omega
      have hk : (n - 1) % 4 * 2048 + 2048 = n % 4 * 2048 := by omega
      simp only [hq, hk] at i2
      obtain ⟨μ', h5, h6⟩ := Step.step (qArr m c) (kArr m c) (wArr m c) (n / 4) (n % 4)
        (qblk m c ⟨n, h⟩) (kblk m c ⟨n, h⟩) (vblk m c ⟨n, h⟩) (mxAt m c (n - 1) hp) (accAt m c (n - 1) hp) hx0 hx1 hx2 μ i1 i2
      refine ⟨μ', fun r => ?_, fun r c' => ?_⟩
      · rw [e1', stored_max]; exact h5 r
      · rw [e2']; exact h6 r c'

/-- THE OUTPUT BLOCK at a last tile: entry `(r, d)` is the attention output of row `(t / 4)·1024 + r`, column `d`. -/
theorem out_block (hQ : IsReal (qArr m c)) (hK : IsReal (kArr m c)) (hW : IsReal (wArr m c))
    (hW4 : ∀ k, k < 8192 → rOf (wArr m c) k (4 : Fin 5) = 1)
    (t : Fin cfg0.N) (h3 : t.val % 4 = 3) (r : Fin 1024) (d : Fin 4) :
    (outsAt0 m c t.val t.isLt).1 (ix2 r d)
      = ((attnReal (qArr m c) (kArr m c) (wArr m c) (t.val / 4 * 1024 + r.val) d : ℝ) : EReal) := by
  have h0 : ¬t.val % 4 = 0 := by omega
  obtain ⟨μ, -, i2⟩ := running m c hQ hK hW t.val t.isLt
  have hr : t.val % 4 * 2048 + 2048 = 8192 := by omega
  simp only [hr] at i2
  rw [Carried.out_last m c t h0 h3]
  have hden : (∑ k ∈ Finset.range 8192, Real.exp (score (qArr m c) (kArr m c) (t.val / 4 * 1024 + r.val) k - μ r)
        * rOf (wArr m c) k (4 : Fin 5))
      = ∑ k ∈ Finset.range 8192, Real.exp (score (qArr m c) (kArr m c) (t.val / 4 * 1024 + r.val) k - μ r) :=
    Finset.sum_congr rfl fun k hk => by rw [hW4 k (Finset.mem_range.mp hk), mul_one]
  rw [Step.out_real (accAt m c t.val t.isLt) r d _ (fun c' => i2 r c')
    (by rw [hden]; exact (den_pos (μ r) 8192 (by norm_num) _).ne')]
  rw [hden]
  exact congrArg _ (quotient_shift (μ r) 8192 (fun k => score (qArr m c) (kArr m c) (t.val / 4 * 1024 + r.val) k)
    (fun k => rOf (wArr m c) k (Fin.castSucc d)))

end Cert.KernelIdeal.Running

end
-- ==== Proof.OutArray.lean ====
/-
  From the output blocks to the whole result array.

  The result [8192, 4] is written back block by block: query block `b` (rows `b·1024 … b·1024 + 1023`) at the last tile of
  its row of the grid, point `4·b + 3`.  What that point writes is the attention output of those rows, so every entry
  `(i, d)` of the array is covered by the point `4·(i / 1024) + 3`, and the array ends holding the attention output
  everywhere.
-/
import proofs.«120942_j28905129902584_2_alg».proof.Proof.Running

noncomputable section

open Idealize.ShloMosaic Idealize.ShloMosaic.TcCoe Idealize.SL.Sem Idealize.ShloMosaic.ValueIdx
open Idealize.ShloMosaic.Pipeline (Dat)

namespace Cert.KernelIdeal.OutArray

open Cert.KernelIdeal Cert.KernelIdeal.Gen Cert.KernelIdeal.Carried Cert.KernelIdeal.Blocks Cert.KernelIdeal.Running Cert.Attn
open scoped BigOperators

variable (m : (ℓ : Loc nD τ sig) → Buf (Elt Ideal) ℓ) (c : Dev nD)

/-- The whole result array: the attention output, entry by entry. -/
def result : S8192x4.Idx → EReal :=
  fun i => ((attnReal (qArr m c) (kArr m c) (wArr m c) (i 0).val (i 1) : ℝ) : EReal)

/-- A block that holds rows `b·1024 + r` of an array, read at a block index whose array index is known by its
    coordinates. -/
theorem block_entry (X : (⟨2, ![1024, 4]⟩ : Shape).Idx → EReal) (G : (⟨2, ![8192, 4]⟩ : Shape).Idx → EReal) (b : ℕ)
    (hX : ∀ (r : Fin 1024) (d : Fin 4) (h : b * 1024 + r.val < 8192), X (ix2 r d) = G (ix2 ⟨b * 1024 + r.val, h⟩ d))
    (y : (⟨2, ![1024, 4]⟩ : Shape).Idx) (i : (⟨2, ![8192, 4]⟩ : Shape).Idx)
    (h0 : (i 0).val = b * 1024 + (y 0).val) (h1 : (i 1).val = (y 1).val) :
    X y = G i := by
  obtain ⟨r, d, rfl⟩ : ∃ (r : Fin 1024) (d : Fin 4), y = ix2 r d := ⟨y 0, y 1, eq_ix2 y⟩
  have hi : (i 0).val < 8192 := (i 0).isLt
  have h0' : (i 0).val = b * 1024 + r.val := h0
  have h1' : (i 1).val = d.val := h1
  have hb : b * 1024 + r.val < 8192 := by omega
  rw [hX r d hb]
  refine congrArg G (funext fun a => Fin.ext ?_)
  match a with
  | ⟨0, _⟩ => exact h0'.symm
  | ⟨1, _⟩ => exact h1'.symm

/-- WHAT A FLUSHING POINT WRITES BACK is its block of the attention output. -/
theorem flushed_eq (hQ : IsReal (qArr m c)) (hK : IsReal (kArr m c)) (hW : IsReal (wArr m c))
    (hW4 : ∀ k, k < 8192 → rOf (wArr m c) k (4 : Fin 5) = 1)
    (t : Fin cfg0.N) (hf : (cfg0.win 3).flush t = true) :
    (dats m 0 c).flushed 3 t = ((cfg0.win 3).blk t).view.read (Elt Ideal) (result m c) := by
  have h3 : t.val % 4 = 3 := (flush0_3 t).mp hf
  rw [Cert.KernelIdeal.Value.flushed3]
  funext j
  rw [View.read_apply]
  refine block_entry (outsAt0 m c t.val t.isLt).1 (result m c) (t.val / 4) (fun r d h => ?_) _ _ ?_ ?_
  · rw [out_block m c hQ hK hW hW4 t h3 r d]
    rfl
  · show win0_3.index t 0 * 1024 + 1 * (j 0).val = t.val / 4 * 1024 + (j 0).val
    rw [(idx_facts t).2.2.2.2.2.2.1]; omega
  · show win0_3.index t 1 * 4 + 1 * (j 1).val = (j 1).val
    rw [(idx_facts t).2.2.2.2.2.2.2]; omega

/-- An index of the array is in point `t`'s output block iff each coordinate is in the block's range on its axis. -/
theorem mem_blk (t : Fin cfg0.N) (i : S8192x4.Idx) :
    i ∈ ((cfg0.win 3).blk t).view.set ↔ ∀ a : Fin 2, win0_3.index t a * S1024x4.size a ≤ (i a).val ∧ (i a).val < win0_3.index t a * S1024x4.size a + S1024x4.size a := by
  show i ∈ ((View.whole main_v23).slice (win0_3.rect t)).set ↔ _
  rw [View.set_slice_whole, Rect.mem_set_unit]
  exact Iff.rfl

/-- THE RESULT ARRAY after the run is the attention output. -/
theorem final (hQ : IsReal (qArr m c)) (hK : IsReal (kArr m c)) (hW : IsReal (wArr m c))
    (hW4 : ∀ k, k < 8192 → rOf (wArr m c) k (4 : Fin 5) = 1) :
    (dats m 0 c).arrAt 3 cfg0.N = result m c :=
  (dats m 0 c).arrAt_eq_of_cover 3 (result m c) (flushed_eq m c hQ hK hW hW4) fun i => by
    have hi0 : (i 0).val < 8192 := (i 0).isLt
    have hi1 : (i 1).val < 4 := (i 1).isLt
    have hN : cfg0.N = 32 := N_0
    have ht : 4 * ((i 0).val / 1024) + 3 < cfg0.N := by omega
    refine ⟨⟨4 * ((i 0).val / 1024) + 3, ht⟩, (flush0_3 _).mpr (by show (4 * ((i 0).val / 1024) + 3) % 4 = 3; omega), ?_⟩
    rw [mem_blk]
    obtain ⟨-, -, -, -, -, -, e0, e1⟩ := idx_facts ⟨4 * ((i 0).val / 1024) + 3, ht⟩
    have e0' : win0_3.index ⟨4 * ((i 0).val / 1024) + 3, ht⟩ 0 = (i 0).val / 1024 := by rw [e0]; show (4 * ((i 0).val / 1024) + 3) / 4 = _; omega
    intro a
    match a with
    | ⟨0, _⟩ =>
      show win0_3.index ⟨4 * ((i 0).val / 1024) + 3, ht⟩ 0 * 1024 ≤ (i 0).val ∧ (i 0).val < win0_3.index ⟨4 * ((i 0).val / 1024) + 3, ht⟩ 0 * 1024 + 1024
      rw [e0']; omega
    | ⟨1, _⟩ =>
      show win0_3.index ⟨4 * ((i 0).val / 1024) + 3, ht⟩ 1 * 4 ≤ (i 1).val ∧ (i 1).val < win0_3.index ⟨4 * ((i 0).val / 1024) + 3, ht⟩ 1 * 4 + 4
      rw [e1]; omega

/-- The kernel's run, read: the result array at the attention output, the arguments unchanged. -/
theorem run (ρ : Dev nD → PrngReg)
    (hreal : ∀ c : Dev nD, IsReal (qArr m c) ∧ IsReal (kArr m c) ∧ IsReal (wArr m c) ∧ ∀ k, k < 8192 → rOf (wArr m c) k (4 : Fin 5) = 1) :
    θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
      ⟨(h c).1.trans (final m c (hreal c).1 (hreal c).2.1 (hreal c).2.2.1 (hreal c).2.2.2), (h c).2⟩)
    (Cert.KernelIdeal.Value.run_blocks m ρ)

end Cert.KernelIdeal.OutArray

end
-- ==== Proof.HostSide.lean ====
/-
  The kernel's three operands are the reference's projections, scaled and augmented.

  Before the attention kernel the program computes, with the same operations as the reference, the projections
  `q = emb·Wq + bq`, `k = emb·Wk + bk`, `v = emb·Wv + bv`, and hands the kernel
      `q · ½`   (the softmax scale 1/√4 folded into the queries),
      `k`,
      `v` with a fifth column of ones (whose weighted sum is the softmax denominator).
  So entry by entry, as reals: the scaled queries are half the queries, the first four value columns are `v`, and the
  fifth is one.
-/
import proofs.«120942_j28905129902584_2_alg».proof.Proof.Blocks
import proofs.«120942_j28905129902584_2_alg».proof.Proof.Gen.ReferenceIdeal.Read
import proofs.«120942_j28905129902584_2_alg».proof.Proof.RealEntries
import Idealize.ShloMosaic.Lib.StableHlo.Run
import Idealize.ShloMosaic.Lib.Pipeline.Value

noncomputable section

open Idealize.ShloMosaic Idealize.ShloMosaic.TcCoe Idealize.SL.Sem Idealize.ShloMosaic.ValueIdx

namespace Cert.KernelIdeal.HostSide

open Cert.KernelIdeal Cert.KernelIdeal.Gen Cert.KernelIdeal.Blocks Cert.Attn
open scoped BigOperators

/-- The word of `0.5` denotes the real ½. -/
theorem half_eq : Ideal.ofBits .f32 0x3F000000#32 = (((1 / 2 : ℝ)) : EReal) := by
  unfold Ideal.ofBits Ideal.ieee
  simp only []
  rw [if_neg (by decide), if_neg (by decide)]
  have hex : ((0x3F000000#32 : BitVec 32).extractLsb' 23 8).toNat = 126 := by decide
  have hfr : ((0x3F000000#32 : BitVec 32).extractLsb' 0 23).toNat = 0 := by decide
  have hs : ((0x3F000000#32 : BitVec 32).extractLsb' (8 + 23) 1 == 1#1) = false := by decide
  simp only [hex, hfr, hs]
  norm_num

/-- The word of `1.0` denotes the real 1. -/
theorem one_eq : Ideal.ofBits .f32 0x3F800000#32 = ((1 : ℝ) : EReal) := by
  unfold Ideal.ofBits Ideal.ieee
  simp only []
  rw [if_neg (by decide), if_neg (by decide)]
  have hex : ((0x3F800000#32 : BitVec 32).extractLsb' 23 8).toNat = 127 := by decide
  have hfr : ((0x3F800000#32 : BitVec 32).extractLsb' 0 23).toNat = 0 := by decide
  have hs : ((0x3F800000#32 : BitVec 32).extractLsb' (8 + 23) 1 == 1#1) = false := by decide
  simp only [hex, hfr, hs]
  norm_num

/-- The values with a column of ones: the first four columns are the values. -/
theorem aug_left (v : (⟨2, ![8192, 4]⟩ : Shape).Idx → EReal) (o : (⟨2, ![8192, 1]⟩ : Shape).Idx → EReal)
    (h : Shape.Concatenates [(⟨2, ![8192, 4]⟩ : Shape), ⟨2, ![8192, 1]⟩] ⟨2, ![8192, 5]⟩ (1 : Fin 2)) (n : Fin 8192) (d : Fin 4) :
    concatenate ⟨2, ![8192, 5]⟩ (1 : Fin 2) [⟨⟨2, ![8192, 4]⟩, v⟩, ⟨⟨2, ![8192, 1]⟩, o⟩] h (ix2 n (Fin.castSucc d)) = v (ix2 n d) :=
  concatenate_pair_apply_left (1 : Fin 2) v o h (ix2 n (Fin.castSucc d)) rfl (ix2 n d) (fun b => by
    match b with
    | ⟨0, _⟩ => rfl
    | ⟨1, _⟩ => rfl)

/-- The values with a column of ones: the fifth column is the appended one. -/
theorem aug_right (v : (⟨2, ![8192, 4]⟩ : Shape).Idx → EReal) (o : (⟨2, ![8192, 1]⟩ : Shape).Idx → EReal)
    (h : Shape.Concatenates [(⟨2, ![8192, 4]⟩ : Shape), ⟨2, ![8192, 1]⟩] ⟨2, ![8192, 5]⟩ (1 : Fin 2)) (n : Fin 8192) :
    concatenate ⟨2, ![8192, 5]⟩ (1 : Fin 2) [⟨⟨2, ![8192, 4]⟩, v⟩, ⟨⟨2, ![8192, 1]⟩, o⟩] h (ix2 n (4 : Fin 5)) = o (ix2 n (0 : Fin 1)) :=
  concatenate_pair_apply_right (1 : Fin 2) v o h (ix2 n (4 : Fin 5)) rfl rfl (ix2 n (0 : Fin 1)) (fun b hb => by
    match b with
    | ⟨0, _⟩ => rfl
    | ⟨1, _⟩ => exact absurd rfl hb) rfl

variable (m : (ℓ : Loc nD τ sig) → Buf (Elt Ideal) ℓ) (c : Dev nD)

/-- The reference's query projection of the kernel's arguments. -/
abbrev qRef : (⟨2, ![8192, 4]⟩ : Shape).Idx → EReal :=
  Cert.ReferenceIdeal.Read.val_main_v10 (F := Ideal) (m ((c : Thread nD τ).loc main_arg0)) (m ((c : Thread nD τ).loc main_arg1)) (m ((c : Thread nD τ).loc main_arg2)) (m ((c : Thread nD τ).loc main_arg3))
/-- The reference's key projection of the kernel's arguments. -/
abbrev kRef : (⟨2, ![8192, 4]⟩ : Shape).Idx → EReal :=
  Cert.ReferenceIdeal.Read.val_main_v14 (F := Ideal) (m ((c : Thread nD τ).loc main_arg0)) (m ((c : Thread nD τ).loc main_arg1)) (m ((c : Thread nD τ).loc main_arg4)) (m ((c : Thread nD τ).loc main_arg5))
/-- The reference's value projection of the kernel's arguments. -/
abbrev vRef : (⟨2, ![8192, 4]⟩ : Shape).Idx → EReal :=
  Cert.ReferenceIdeal.Read.val_main_v18 (F := Ideal) (m ((c : Thread nD τ).loc main_arg0)) (m ((c : Thread nD τ).loc main_arg1)) (m ((c : Thread nD τ).loc main_arg6)) (m ((c : Thread nD τ).loc main_arg7))

set_option maxHeartbeats 1000000 in
/-- The kernel's queries are the query projection times ½. -/
theorem q_term : qArr m c = mulf (F := Ideal) (qRef m c)
    (broadcastInDim S8192x4 ![] bcast_S_S8192x4 (constant (F := Ideal) S_ .f32 0x3F000000#32)) := by
  unfold qArr
  dsimp only [V, hostOps0]
  after_results
  rfl

set_option maxHeartbeats 1000000 in
/-- The kernel's keys are the key projection. -/
theorem k_term : kArr m c = kRef m c := by
  unfold kArr
  dsimp only [V, hostOps0]
  after_results
  rfl

set_option maxHeartbeats 1000000 in
/-- The kernel's values are the value projection with a column of ones appended. -/
theorem w_term : wArr m c = concatenate S8192x5 1 [⟨S8192x4, vRef m c⟩,
    ⟨S8192x1, broadcastInDim S8192x1 ![] bcast_S_S8192x1 (constant (F := Ideal) S_ .f32 0x3F800000#32)⟩]
    concatenates_S8192x4_S8192x1_S8192x5_d1 := by
  unfold wArr
  dsimp only [V, hostOps0]
  after_results
  rfl

/-- The scaled queries at an entry. -/
theorem q_at (i : S8192x4.Idx) : qArr m c i = qRef m c i * (((1 / 2 : ℝ)) : EReal) := by
  rw [q_term]
  show qRef m c i * Ideal.ofBits .f32 0x3F000000#32 = _
  rw [half_eq]

/-- The kernel's values at one of the first four columns. -/
theorem w_at (n : Fin 8192) (d : Fin 4) : wArr m c (ix2 n (Fin.castSucc d)) = vRef m c (ix2 n d) := by
  rw [w_term]
  exact aug_left _ _ _ n d

/-- The kernel's values at the fifth column. -/
theorem w_at4 (n : Fin 8192) : wArr m c (ix2 n (4 : Fin 5)) = ((1 : ℝ) : EReal) := by
  rw [w_term]
  refine (aug_right _ _ _ n).trans ?_
  show Ideal.ofBits .f32 0x3F800000#32 = _
  exact one_eq

/-- With real projections, the kernel's three arrays have real entries, and read as: half the queries; the keys; the
    values, then one. -/
theorem kernel_arrays (hq : IsReal (qRef m c)) (hk : IsReal (kRef m c)) (hv : IsReal (vRef m c)) :
    IsReal (qArr m c) ∧ IsReal (kArr m c) ∧ IsReal (wArr m c)
    ∧ (∀ k, k < 8192 → rOf (wArr m c) k (4 : Fin 5) = 1)
    ∧ (∀ (n : ℕ) (d : Fin 4), rOf (qArr m c) n d = rOf (qRef m c) n d * (1 / 2))
    ∧ (∀ (n : ℕ), n < 8192 → ∀ d : Fin 4, rOf (wArr m c) n (Fin.castSucc d) = rOf (vRef m c) n d) := by
  refine ⟨fun i => ?_, ?_, fun i => ?_, fun k hk' => ?_, fun n d => ?_, fun n hn d => ?_⟩
  · obtain ⟨a, ha⟩ := hq i
    exact ⟨a * (1 / 2), by rw [q_at, ha, EReal.coe_mul]⟩
  · rw [k_term]; exact hk
  · obtain ⟨n, c', rfl⟩ : ∃ (n : Fin 8192) (c' : Fin 5), i = ix2 n c' := ⟨i 0, i 1, eq_ix2 i⟩
    by_cases h4 : c' = 4
    · subst h4; exact ⟨1, w_at4 m c n⟩
    · have hc : c'.val < 4 := by have := c'.isLt; have : c'.val ≠ 4 := fun h => h4 (Fin.ext h); omega
      obtain ⟨a, ha⟩ := hv (ix2 n ⟨c'.val, hc⟩)
      exact ⟨a, by rw [show c' = Fin.castSucc ⟨c'.val, hc⟩ from Fin.ext rfl, w_at, ha]⟩
  · exact rOf_of_coe k hk' 4 1 (w_at4 m c ⟨k, hk'⟩)
  · by_cases h : n < 8192
    · exact rOf_of_coe n h d _ (by rw [q_at, rOf_eq_of_lt hq n h d, EReal.coe_mul])
    · unfold rOf; rw [dif_neg h, dif_neg h, zero_mul]
  · exact rOf_of_coe n hn (Fin.castSucc d) _ (by rw [w_at m c ⟨n, hn⟩ d]; exact rOf_eq_of_lt hv n hn d)

end Cert.KernelIdeal.HostSide

end
-- ==== Proof.LibHostRowMax.lean ====
/-
  The host's maximum of a matrix along its second axis, on the extended reals, read at a row.

  `stablehlo.reduce` with a `maximum` body over axis 1 of an [a, b] array, started from −∞ (the initial value's word is the
  bottom of the extended reals), is at row i the supremum of the entries (i, k): the rank-2 companion of the lane reduction
  `jnp.max(x, axis=-1)` inside a kernel.  No finiteness is needed.
-/
import proofs.«120942_j28905129902584_2_alg».proof.Proof.LibMinMaxInf
import Idealize.ShloMosaic.Lib.ValueIdx

noncomputable section

namespace Cert.Lib.HostRowMax

open Idealize.ShloMosaic Idealize.ShloMosaic.ValueIdx

/-- The host's maximum of an [a, b] array along its second axis, started from −∞, is at row i the supremum of that row. -/
theorem hostRowMax_apply {a b : ℕ} {u : Shape} (x : FVec Ideal ⟨2, ![a, b]⟩ .f32) (init : FVec Ideal u .f32)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel)
    (hinit : init (Shape.Idx.first hu) = Ideal.ofBits .f32 0xFF800000#32) (i : Fin a) :
    Host.reduce (FloatOps.maximumf (F := Ideal) (φ := .f32)) x init h' hu (ix1 i)
      = (Finset.univ : Finset (Fin b)).sup fun k => x (ix2 i k) := by
  refine (Cert.Lib.MinMaxInf.hostReduce_maximumf_single x init h' h hu (ix1 i)).trans ?_
  rw [hinit, Cert.Lib.MinMaxInf.ofBits_negInf_f32, bot_sup_eq]
  exact Finset.sup_congr rfl fun k _ => congrArg x (funext fun c => Fin.ext (by
    match c with
    | ⟨0, _⟩ => rfl
    | ⟨1, _⟩ => rfl))

end Cert.Lib.HostRowMax

end
-- ==== Proof.RefAttention.lean ====
/-
  The reference's attention, read at an entry, on the extended reals at real entries.

  With `q`, `k`, `v` the three projections ([8192, 4] each, real entries) the reference computes
      s (i, j)   = (∑ d, q (i, d) · k (j, d)) / √4            the scaled scores; √4 = 2
      M i        = max (−∞, sup over j of s (i, j))            a real: the row is not empty
      e (i, j)   = exp (s (i, j) − M i)
      Z i        = 0 + ∑ j, e (i, j)                           positive
      out (i, d) = ∑ j, (e (i, j) / Z i) · v (j, d).
  Over the reals this weighted softmax is `(∑ j, exp (s (i, j)) · v (j, d)) / (∑ j, exp (s (i, j)))`: the shift by
  `M i` cancels.  Stated against any scaled query array `q'` (entries half of `q`'s) and any value array `w'` whose first
  four columns are `v`, it is the attention output `attnReal q' k w'`.
-/
import proofs.«120942_j28905129902584_2_alg».proof.Proof.Gen.ReferenceIdeal.Read
import proofs.«120942_j28905129902584_2_alg».proof.Proof.LibHostRowMax
import proofs.«120942_j28905129902584_2_alg».proof.Proof.RealEntries

noncomputable section

namespace Cert.ReferenceIdeal.RefValue

open Cert.ReferenceIdeal Cert.ReferenceIdeal.Gen Cert.ReferenceIdeal.Read Cert.Attn
open Idealize.ShloMosaic Idealize.ShloMosaic.ValueIdx
open scoped BigOperators

/-- The word of `4.0` denotes the real 4. -/
theorem four_eq : Ideal.ofBits .f32 0x40800000#32 = ((4 : ℝ) : EReal) := by
  unfold Ideal.ofBits Ideal.ieee
  simp only []
  rw [if_neg (by decide), if_neg (by decide)]
  have hex : ((0x40800000#32 : BitVec 32).extractLsb' 23 8).toNat = 129 := by decide
  have hfr : ((0x40800000#32 : BitVec 32).extractLsb' 0 23).toNat = 0 := by decide
  have hs : ((0x40800000#32 : BitVec 32).extractLsb' (8 + 23) 1 == 1#1) = false := by decide
  simp only [hex, hfr, hs]
  norm_num

/-- The square root of 4 is 2. -/
theorem sqrt_four : Ideal.sqrt ((4 : ℝ) : EReal) = ((2 : ℝ) : EReal) := by
  rw [Ideal.sqrt_coe, if_neg (by norm_num)]
  congr 1
  rw [show (4 : ℝ) = 2 ^ 2 by norm_num]
  exact Real.sqrt_sq (by norm_num)

variable (x0 : (⟨S8192, .i32⟩ : BufTy).Contents (Elt Ideal)) (x1 : (⟨S10x3, .f32⟩ : BufTy).Contents (Elt Ideal))
  (x2 : (⟨S3x4, .f32⟩ : BufTy).Contents (Elt Ideal)) (x3 : (⟨S4, .f32⟩ : BufTy).Contents (Elt Ideal))
  (x4 : (⟨S3x4, .f32⟩ : BufTy).Contents (Elt Ideal)) (x5 : (⟨S4, .f32⟩ : BufTy).Contents (Elt Ideal))
  (x6 : (⟨S3x4, .f32⟩ : BufTy).Contents (Elt Ideal)) (x7 : (⟨S4, .f32⟩ : BufTy).Contents (Elt Ideal))

/-- The query projection. -/
abbrev qq : (⟨2, ![8192, 4]⟩ : Shape).Idx → EReal := val_main_v10 (F := Ideal) x0 x1 x2 x3
/-- The key projection. -/
abbrev kk : (⟨2, ![8192, 4]⟩ : Shape).Idx → EReal := val_main_v14 (F := Ideal) x0 x1 x4 x5
/-- The value projection. -/
abbrev vv : (⟨2, ![8192, 4]⟩ : Shape).Idx → EReal := val_main_v18 (F := Ideal) x0 x1 x6 x7

/-- The reference's scaled score over the reals. -/
def sc (i j : ℕ) : ℝ := score (qq x0 x1 x2 x3) (kk x0 x1 x4 x5) i j / 2

/-- THE SCALED SCORES at `(i, j)`. -/
theorem scaled_score (hq : IsReal (qq x0 x1 x2 x3)) (hk : IsReal (kk x0 x1 x4 x5)) (i j : Fin 8192) :
    val_main_v23 (F := Ideal) x0 x1 x2 x3 x4 x5 (ix2 i j) = ((sc x0 x1 x2 x3 x4 x5 i.val j.val : ℝ) : EReal) := by
  have el : ∀ d : Fin 4, lidx_main_v20 (ix2 i j) d = ix2 i d := fun d => funext fun a => Fin.ext (by
    match a with
    | ⟨0, _⟩ => rfl
    | ⟨1, _⟩ => rfl)
  have er : ∀ d : Fin 4, idx_main_v19 (ridx_main_v20 (ix2 i j) d) = ix2 j d := fun d => funext fun a => Fin.ext (by
    match a with
    | ⟨0, _⟩ => rfl
    | ⟨1, _⟩ => rfl)
  rw [val_main_v23_apply, val_main_v20_apply, val_main_v22_apply, val_main_v21_apply, val_main_cst_apply]
  simp only [val_main_v19_apply, el, er]
  have hs : (∑ d : Fin 4, val_main_v10 (F := Ideal) x0 x1 x2 x3 (ix2 i d) * val_main_v14 (F := Ideal) x0 x1 x4 x5 (ix2 j d))
      = ((score (qq x0 x1 x2 x3) (kk x0 x1 x4 x5) i.val j.val : ℝ) : EReal) := by
    unfold score
    rw [coe_sum]
    exact Finset.sum_congr rfl fun d _ => by
      rw [EReal.coe_mul]
      exact congrArg₂ (· * ·) (rOf_eq hq i d) (rOf_eq hk j d)
  rw [hs]
  show Ideal.div _ (Ideal.sqrt (Ideal.ofBits .f32 0x40800000#32)) = _
  rw [four_eq, sqrt_four, div_coe_coe _ _ two_ne_zero]
  rfl

/-- THE ROW MAXIMUM, spread over the row, is one real. -/
theorem row_shift (hq : IsReal (qq x0 x1 x2 x3)) (hk : IsReal (kk x0 x1 x4 x5)) (i : Fin 8192) :
    ∃ M : ℝ, ∀ j : Fin 8192, val_main_v28 (F := Ideal) x0 x1 x2 x3 x4 x5 (ix2 i j) = ((M : ℝ) : EReal) := by
  obtain ⟨M, hM⟩ := exists_real_sup_univ (n := 8191) (fun j : Fin 8192 => sc x0 x1 x2 x3 x4 x5 i.val j.val)
  refine ⟨M, fun j => ?_⟩
  have e1 : idx_main_v27 (idx_main_v28 (ix2 i j)) = ix1 i := funext fun a => Fin.ext (by
    match a with
    | ⟨0, _⟩ => rfl)
  have hmax : val_main_v24 (F := Ideal) x0 x1 x2 x3 x4 x5 (ix1 i)
      = (Finset.univ : Finset (Fin 8192)).sup fun k => val_main_v23 (F := Ideal) x0 x1 x2 x3 x4 x5 (ix2 i k) :=
    Cert.Lib.HostRowMax.hostRowMax_apply (val_main_v23 (F := Ideal) x0 x1 x2 x3 x4 x5) (val_main_cst_1 (F := Ideal))
      reducesTo_S8192x8192_S8192_d1 (by decide) h_S_ rfl i
  rw [val_main_v28_apply, val_main_v27_apply, e1, val_main_v26_apply, val_main_v25_apply, val_main_cst_2_apply, hmax]
  simp only [scaled_score x0 x1 x2 x3 x4 x5 hq hk]
  show max (Ideal.ofBits .f32 0xFF800000#32) _ = _
  rw [Cert.Lib.MinMaxInf.ofBits_negInf_f32, max_eq_right bot_le]
  exact hM

/-- THE EXPONENTIALS at `(i, j)`, given the row's shift. -/
theorem exp_entry (hq : IsReal (qq x0 x1 x2 x3)) (hk : IsReal (kk x0 x1 x4 x5)) (i : Fin 8192) (M : ℝ)
    (hM : ∀ j : Fin 8192, val_main_v28 (F := Ideal) x0 x1 x2 x3 x4 x5 (ix2 i j) = ((M : ℝ) : EReal)) (j : Fin 8192) :
    val_main_v30 (F := Ideal) x0 x1 x2 x3 x4 x5 (ix2 i j) = ((Real.exp (sc x0 x1 x2 x3 x4 x5 i.val j.val - M) : ℝ) : EReal) := by
  rw [val_main_v30_apply, val_main_v29_apply, scaled_score x0 x1 x2 x3 x4 x5 hq hk, hM j]
  rw [Ideal.hostUnary_exp_def, Ideal.subf_def, ← EReal.coe_sub, Ideal.exp_coe]

/-- THE ROW SUMS, spread over the row. -/
theorem row_sum (hq : IsReal (qq x0 x1 x2 x3)) (hk : IsReal (kk x0 x1 x4 x5)) (i : Fin 8192) (M : ℝ)
    (hM : ∀ j : Fin 8192, val_main_v28 (F := Ideal) x0 x1 x2 x3 x4 x5 (ix2 i j) = ((M : ℝ) : EReal)) (j : Fin 8192) :
    val_main_v33 (F := Ideal) x0 x1 x2 x3 x4 x5 (ix2 i j)
      = ((∑ l ∈ Finset.range 8192, Real.exp (sc x0 x1 x2 x3 x4 x5 i.val l - M) : ℝ) : EReal) := by
  have e1 : idx_main_v32 (idx_main_v33 (ix2 i j)) = ix1 i := funext fun a => Fin.ext (by
    match a with
    | ⟨0, _⟩ => rfl)
  have e2 : ∀ l : Fin 8192, idx_main_v31 (ix1 i) l = ix2 i l := fun l => funext fun a => Fin.ext (by
    match a with
    | ⟨0, _⟩ => rfl
    | ⟨1, _⟩ => rfl)
  rw [val_main_v33_apply, val_main_v32_apply, e1, val_main_v31_apply]
  simp only [e2, exp_entry x0 x1 x2 x3 x4 x5 hq hk i M hM]
  show Ideal.ofBits .f32 0x00000000#32 + _ = _
  rw [Ideal.ofBits_zero_f32, zero_add, ← coe_sum,
    Fin.sum_univ_eq_sum_range (fun l => Real.exp (sc x0 x1 x2 x3 x4 x5 i.val l - M)) 8192]

/-- THE REFERENCE'S RESULT at `(i, d)`: the shift-free quotient over the reals. -/
theorem ref_entry (hq : IsReal (qq x0 x1 x2 x3)) (hk : IsReal (kk x0 x1 x4 x5)) (hv : IsReal (vv x0 x1 x6 x7))
    (i : Fin 8192) (d : Fin 4) :
    val_main_v35 (F := Ideal) x0 x1 x2 x3 x4 x5 x6 x7 (ix2 i d)
      = (((∑ n ∈ Finset.range 8192, Real.exp (sc x0 x1 x2 x3 x4 x5 i.val n) * rOf (vv x0 x1 x6 x7) n d)
          / (∑ n ∈ Finset.range 8192, Real.exp (sc x0 x1 x2 x3 x4 x5 i.val n)) : ℝ) : EReal) := by
  obtain ⟨M, hM⟩ := row_shift x0 x1 x2 x3 x4 x5 hq hk i
  have el : ∀ k : Fin 8192, lidx_main_v35 (ix2 i d) k = ix2 i k := fun k => funext fun a => Fin.ext (by
    match a with
    | ⟨0, _⟩ => rfl
    | ⟨1, _⟩ => rfl)
  have er : ∀ k : Fin 8192, ridx_main_v35 (ix2 i d) k = ix2 k d := fun k => funext fun a => Fin.ext (by
    match a with
    | ⟨0, _⟩ => rfl
    | ⟨1, _⟩ => rfl)
  have hZ : (∑ l ∈ Finset.range 8192, Real.exp (sc x0 x1 x2 x3 x4 x5 i.val l - M)) ≠ 0 :=
    (den_pos M 8192 (by norm_num) _).ne'
  rw [val_main_v35_apply]
  simp only [el, er, val_main_v34_apply, exp_entry x0 x1 x2 x3 x4 x5 hq hk i M hM, row_sum x0 x1 x2 x3 x4 x5 hq hk i M hM]
  have hterm : ∀ k : Fin 8192,
      FloatOps.hostDivf (F := Ideal) (φ := .f32) ((Real.exp (sc x0 x1 x2 x3 x4 x5 i.val k.val - M) : ℝ) : EReal)
          ((∑ l ∈ Finset.range 8192, Real.exp (sc x0 x1 x2 x3 x4 x5 i.val l - M) : ℝ) : EReal)
        * val_main_v18 (F := Ideal) x0 x1 x6 x7 (ix2 k d)
      = ((Real.exp (sc x0 x1 x2 x3 x4 x5 i.val k.val - M) / (∑ l ∈ Finset.range 8192, Real.exp (sc x0 x1 x2 x3 x4 x5 i.val l - M))
          * rOf (vv x0 x1 x6 x7) k.val d : ℝ) : EReal) := fun k => by
    show Ideal.div _ _ * _ = _
    rw [div_coe_coe _ _ hZ, EReal.coe_mul]
    exact congrArg _ (rOf_eq hv k d)
  simp only [hterm]
  rw [← coe_sum, Fin.sum_univ_eq_sum_range (fun n => Real.exp (sc x0 x1 x2 x3 x4 x5 i.val n - M)
    / (∑ l ∈ Finset.range 8192, Real.exp (sc x0 x1 x2 x3 x4 x5 i.val l - M)) * rOf (vv x0 x1 x6 x7) n d) 8192]
  exact congrArg _ (softmax_weighted M 8192 (fun n => sc x0 x1 x2 x3 x4 x5 i.val n) (fun n => rOf (vv x0 x1 x6 x7) n d))

/-- THE REFERENCE'S RESULT is the attention output of the scaled queries `q'`, the keys, and the values `w'` with
    their column of ones. -/
theorem ref_attn (hq : IsReal (qq x0 x1 x2 x3)) (hk : IsReal (kk x0 x1 x4 x5)) (hv : IsReal (vv x0 x1 x6 x7))
    (q' : (⟨2, ![8192, 4]⟩ : Shape).Idx → EReal) (w' : (⟨2, ![8192, 5]⟩ : Shape).Idx → EReal)
    (hq' : ∀ (n : ℕ) (d : Fin 4), rOf q' n d = rOf (qq x0 x1 x2 x3) n d * (1 / 2))
    (hw' : ∀ (n : ℕ), n < 8192 → ∀ d : Fin 4, rOf w' n (Fin.castSucc d) = rOf (vv x0 x1 x6 x7) n d)
    (i : Fin 8192) (d : Fin 4) :
    val_main_v35 (F := Ideal) x0 x1 x2 x3 x4 x5 x6 x7 (ix2 i d)
      = ((attnReal q' (kk x0 x1 x4 x5) w' i.val d : ℝ) : EReal) := by
  have hs : ∀ n : ℕ, score q' (kk x0 x1 x4 x5) i.val n = sc x0 x1 x2 x3 x4 x5 i.val n := fun n => by
    unfold sc score
    simp only [hq']
    rw [Finset.sum_div]
    exact Finset.sum_congr rfl fun e _ => by ring
  rw [ref_entry x0 x1 x2 x3 x4 x5 x6 x7 hq hk hv i d]
  unfold attnReal
  simp only [hs]
  refine congrArg _ (congrArg₂ (· / ·) (Finset.sum_congr rfl fun n hn => ?_) rfl)
  rw [hw' n (Finset.mem_range.mp hn) d]

end Cert.ReferenceIdeal.RefValue

end
-- ==== Proof.RefReal.lean ====
/-
  The three projections have real entries when the arguments do.

  Each projection is `emb · W + b`: `emb` the rows of the embedding table the token indices select (a gather reads
  entries of its operand, whatever the indices), the product a finite sum of products of reals, the bias row read at
  an index.
-/
import proofs.«120942_j28905129902584_2_alg».proof.Proof.Gen.ReferenceIdeal.Read
import proofs.«120942_j28905129902584_2_alg».proof.Proof.RealEntries

noncomputable section

namespace Cert.ReferenceIdeal.RefReal

open Cert.ReferenceIdeal Cert.ReferenceIdeal.Gen Cert.ReferenceIdeal.Read Cert.Attn
open Idealize.ShloMosaic Idealize.ShloMosaic.ValueIdx
open scoped BigOperators

variable (x0 : (⟨S8192, .i32⟩ : BufTy).Contents (Elt Ideal)) (x1 : (⟨S10x3, .f32⟩ : BufTy).Contents (Elt Ideal))
  (x2 : (⟨S3x4, .f32⟩ : BufTy).Contents (Elt Ideal)) (x3 : (⟨S4, .f32⟩ : BufTy).Contents (Elt Ideal))
  (x4 : (⟨S3x4, .f32⟩ : BufTy).Contents (Elt Ideal)) (x5 : (⟨S4, .f32⟩ : BufTy).Contents (Elt Ideal))
  (x6 : (⟨S3x4, .f32⟩ : BufTy).Contents (Elt Ideal)) (x7 : (⟨S4, .f32⟩ : BufTy).Contents (Elt Ideal))

/-- The gathered embedding rows are entries of the table. -/
theorem isReal_emb (h1 : IsReal x1) : IsReal (val_main_v6 (F := Ideal) x0 x1) := fun i => by
  unfold val_main_v6 Host.gather
  exact h1 _

/-- The q projection has real entries. -/
theorem isReal_q (h1 : IsReal x1) (hw : IsReal x2) (hb : IsReal x3) :
    IsReal (val_main_v10 (F := Ideal) x0 x1 x2 x3) := fun i => by
  rw [val_main_v10_apply, val_main_v7_apply, val_main_v9_apply, val_main_v8_apply]
  obtain ⟨s, hs⟩ := exists_real_sum Finset.univ
    (fun k : Fin 3 => val_main_v6 (F := Ideal) x0 x1 (lidx_main_v7 i k) * x2 (ridx_main_v7 i k)) (fun k => by
      obtain ⟨a, ha⟩ := isReal_emb x0 x1 h1 (lidx_main_v7 i k)
      obtain ⟨b, hb'⟩ := hw (ridx_main_v7 i k)
      exact ⟨a * b, by rw [ha, hb', EReal.coe_mul]⟩)
  obtain ⟨b, hb'⟩ := hb (idx_main_v8 (idx_main_v9 i))
  exact ⟨s + b, by rw [Ideal.addf_def, hs, hb', EReal.coe_add]⟩

/-- The k projection has real entries. -/
theorem isReal_k (h1 : IsReal x1) (hw : IsReal x4) (hb : IsReal x5) :
    IsReal (val_main_v14 (F := Ideal) x0 x1 x4 x5) := fun i => by
  rw [val_main_v14_apply, val_main_v11_apply, val_main_v13_apply, val_main_v12_apply]
  obtain ⟨s, hs⟩ := exists_real_sum Finset.univ
    (fun k : Fin 3 => val_main_v6 (F := Ideal) x0 x1 (lidx_main_v11 i k) * x4 (ridx_main_v11 i k)) (fun k => by
      obtain ⟨a, ha⟩ := isReal_emb x0 x1 h1 (lidx_main_v11 i k)
      obtain ⟨b, hb'⟩ := hw (ridx_main_v11 i k)
      exact ⟨a * b, by rw [ha, hb', EReal.coe_mul]⟩)
  obtain ⟨b, hb'⟩ := hb (idx_main_v12 (idx_main_v13 i))
  exact ⟨s + b, by rw [Ideal.addf_def, hs, hb', EReal.coe_add]⟩

/-- The v projection has real entries. -/
theorem isReal_v (h1 : IsReal x1) (hw : IsReal x6) (hb : IsReal x7) :
    IsReal (val_main_v18 (F := Ideal) x0 x1 x6 x7) := fun i => by
  rw [val_main_v18_apply, val_main_v15_apply, val_main_v17_apply, val_main_v16_apply]
  obtain ⟨s, hs⟩ := exists_real_sum Finset.univ
    (fun k : Fin 3 => val_main_v6 (F := Ideal) x0 x1 (lidx_main_v15 i k) * x6 (ridx_main_v15 i k)) (fun k => by
      obtain ⟨a, ha⟩ := isReal_emb x0 x1 h1 (lidx_main_v15 i k)
      obtain ⟨b, hb'⟩ := hw (ridx_main_v15 i k)
      exact ⟨a * b, by rw [ha, hb', EReal.coe_mul]⟩)
  obtain ⟨b, hb'⟩ := hb (idx_main_v16 (idx_main_v17 i))
  exact ⟨s + b, by rw [Ideal.addf_def, hs, hb', EReal.coe_add]⟩

end Cert.ReferenceIdeal.RefReal

end
-- ==== Proof.Finite.lean ====
/-
  From the precondition to real entries.

  The precondition is the conjunction, over the seven float arguments, of `all (|x| < +∞)`.  On the extended reals
  `|x| = max x (−x)`, which is below `+∞` exactly when `x` is neither infinity: then `x` is a real number.  A reduction
  by `and` to one word that is 1 had a 1 at every entry, and a conjunction of words that is 1 has every conjunct 1.
-/
import proofs.«120942_j28905129902584_2_alg».proof.Pre_finite_inputs
import proofs.«120942_j28905129902584_2_alg».proof.Proof.RealEntries
import proofs.«120942_j28905129902584_2_alg».proof.Proof.LibMinMaxInf
import Idealize.ShloMosaic.Lib.ReduceAll
import Idealize.ShloMosaic.Lib.ValueIdx

noncomputable section

namespace Cert.Pre_finite_inputs.Finite

open Cert.Pre_finite_inputs Cert.Attn Idealize.ShloMosaic Idealize.ShloMosaic.ValueIdx

instance : Subsingleton S_.Idx := ⟨fun a b => funext fun d => d.elim0⟩

/-- An extended real whose absolute value is below `+∞` is a real. -/
theorem real_of_abs_lt (x : EReal) (h : Ideal.cmp .olt (max x (-x)) (Ideal.ofBits .f32 0x7F800000#32) = 1#1) :
    ∃ r : ℝ, x = (r : EReal) := by
  rw [Cert.Lib.MinMaxInf.ofBits_posInf_f32] at h
  induction x using EReal.rec with
  | bot => simp [Ideal.cmp] at h
  | coe r => exact ⟨r, rfl⟩
  | top => simp [Ideal.cmp] at h

/-- An array whose `all (|x| < +∞)` is 1 has real entries. -/
theorem isReal_of_all {s : Shape} {axes : List (Fin s.rank)} (x : FVec Ideal s .f32) (hb : S_.BroadcastsInDim s ![])
    (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ix0 = 1#1) : IsReal x := fun i => by
  have e := Host.reduce_andi_all _ _ hr hu ix0 h i
  exact real_of_abs_lt (x i) e

variable [Facts]

/-- THE PRECONDITION gives every float argument real entries. -/
theorem args_real (a0 : IVec S8192 32) (a1 : FVec Ideal S10x3 .f32) (a2 : FVec Ideal S3x4 .f32) (a3 : FVec Ideal S4 .f32)
    (a4 : FVec Ideal S3x4 .f32) (a5 : FVec Ideal S4 .f32) (a6 : FVec Ideal S3x4 .f32) (a7 : FVec Ideal S4 .f32)
    (h : fn (F := Ideal) a0 a1 a2 a3 a4 a5 a6 a7 = fun _ => 1#1) :
    IsReal a1 ∧ IsReal a2 ∧ IsReal a3 ∧ IsReal a4 ∧ IsReal a5 ∧ IsReal a6 ∧ IsReal a7 := by
  have h0 := congrFun h ix0
  dsimp only [fn, fn_part1] at h0
  obtain ⟨h0, g7⟩ := IntOp.andi_eq_one.1 h0
  obtain ⟨h0, g6⟩ := IntOp.andi_eq_one.1 h0
  obtain ⟨h0, g5⟩ := IntOp.andi_eq_one.1 h0
  obtain ⟨h0, g4⟩ := IntOp.andi_eq_one.1 h0
  obtain ⟨h0, g3⟩ := IntOp.andi_eq_one.1 h0
  obtain ⟨g1, g2⟩ := IntOp.andi_eq_one.1 h0
  exact ⟨isReal_of_all a1 _ _ _ g1, isReal_of_all a2 _ _ _ g2, isReal_of_all a3 _ _ _ g3, isReal_of_all a4 _ _ _ g4,
    isReal_of_all a5 _ _ _ g5, isReal_of_all a6 _ _ _ g6, isReal_of_all a7 _ _ _ g7⟩

end Cert.Pre_finite_inputs.Finite

end
-- ==== Proof.lean ====
/-
  Flash attention against plain attention, on the extended reals.

  Both programs embed 8192 tokens (rows of a 10 × 3 table), project them to queries, keys and values
  `q, k, v : [8192, 4]`, and return `softmax (q · kᵀ / √4) · v`.  The reference does it in one piece: scores, row maximum,
  exponentials, row sums, quotient, product with `v`.  The kernel folds the scale ½ into the queries, appends a column
  of ones to the values, and for each block of 1024 query rows walks the keys and values in four tiles of 2048 rows,
  keeping a running maximum and a running accumulator that it rescales at every tile (the online softmax); at the last
  tile it divides the four value columns of the accumulator by the fifth.

  With finite inputs every projection entry is a real number, so the whole computation is over ℝ, where
      acc (r, c) after tiles 0 … t   =   ∑ over the key rows seen so far of exp (score − μ r) · (v | 1) (row, c)
  for whatever real `μ r` the running maximum is (one step of the accumulation preserves this: exp (μ − μ') · exp (s − μ)
  = exp (s − μ')), and the final quotient does not depend on `μ r`.  The reference's weighted softmax is that same
  quotient: its shift by the row maximum cancels too, and `√4 = 2` makes its scale the kernel's ½.

  The kernel's run is the generated run of its frame with the result array named block by block; the reference's run
  is the generated run of its host program.  The three frames are the generated ones; the idealization rewrote
  nothing, so `preserves` is trivial.
-/
import proofs.«120942_j28905129902584_2_alg».proof.Defs
import proofs.«120942_j28905129902584_2_alg».proof.Proof.Gen.Kernel
import proofs.«120942_j28905129902584_2_alg».proof.Proof.Gen.Kernel.Skeleton
import proofs.«120942_j28905129902584_2_alg».proof.Proof.Gen.Kernel.Launch
import proofs.«120942_j28905129902584_2_alg».proof.Proof.Gen.Kernel.Points
import proofs.«120942_j28905129902584_2_alg».proof.Proof.Gen.Kernel.Frame
import proofs.«120942_j28905129902584_2_alg».proof.Proof.Gen.KernelIdeal
import proofs.«120942_j28905129902584_2_alg».proof.Proof.Gen.KernelIdeal.Skeleton
import proofs.«120942_j28905129902584_2_alg».proof.Proof.Gen.KernelIdeal.Launch
import proofs.«120942_j28905129902584_2_alg».proof.Proof.Gen.KernelIdeal.Points
import proofs.«120942_j28905129902584_2_alg».proof.Proof.Gen.KernelIdeal.Frame
import proofs.«120942_j28905129902584_2_alg».proof.Proof.Gen.ReferenceIdeal
import proofs.«120942_j28905129902584_2_alg».proof.Proof.Gen.Pre_finite_inputs
import proofs.«120942_j28905129902584_2_alg».proof.Proof.Gen.KernelIdeal.Value
import proofs.«120942_j28905129902584_2_alg».proof.Proof.Gen.ReferenceIdeal.Run
import proofs.«120942_j28905129902584_2_alg».proof.Proof.Gen.ReferenceIdeal.Read
import proofs.«120942_j28905129902584_2_alg».proof.Proof.OutArray
import proofs.«120942_j28905129902584_2_alg».proof.Proof.HostSide
import proofs.«120942_j28905129902584_2_alg».proof.Proof.RefAttention
import proofs.«120942_j28905129902584_2_alg».proof.Proof.RefReal
import proofs.«120942_j28905129902584_2_alg».proof.Proof.Finite
import Idealize.ShloMosaic.Adequacy
import Idealize.ShloMosaic.Init

noncomputable section

namespace Cert.Proof

open Idealize.ShloMosaic Idealize.SL.Sem Idealize.ShloMosaic.ValueIdx Cert.Attn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Under the precondition the three projections of the kernel's arguments have real entries. -/
theorem projections_real (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (Cert.KernelIdeal.HostSide.qRef m c) ∧ IsReal (Cert.KernelIdeal.HostSide.kRef m c)
      ∧ IsReal (Cert.KernelIdeal.HostSide.vRef m c) := by
  obtain ⟨h1, h2, h3, h4, h5, h6, h7⟩ := Cert.Pre_finite_inputs.Finite.args_real _ _ _ _ _ _ _ _ (hpre c)
  exact ⟨Cert.ReferenceIdeal.RefReal.isReal_q _ _ _ _ h1 h2 h3, Cert.ReferenceIdeal.RefReal.isReal_k _ _ _ _ h1 h4 h5,
    Cert.ReferenceIdeal.RefReal.isReal_v _ _ _ _ h1 h6 h7⟩

/-- Both programs end with the attention output of the kernel's three arrays in their result. -/
theorem algebraic : Cert.algebraic_KernelIdeal_ReferenceIdeal := by
  intro m ρ m' ρ' hpre hagree
  have hproj := projections_real m hpre
  have harr := fun c => Cert.KernelIdeal.HostSide.kernel_arrays m c (hproj c).1 (hproj c).2.1 (hproj c).2.2
  refine ⟨fun c => Cert.KernelIdeal.OutArray.result m c,
    Cert.KernelIdeal.OutArray.run m ρ (fun c => ⟨(harr c).1, (harr c).2.1, (harr c).2.2.1, (harr c).2.2.2.1⟩), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  funext i
  obtain ⟨p, d, rfl⟩ : ∃ (p : Fin 8192) (d : Fin 4), i = ix2 p d := ⟨i 0, i 1, eq_ix2 i⟩
  refine (Cert.ReferenceIdeal.RefValue.ref_attn _ _ _ _ _ _ _ _ (hproj c).1 (hproj c).2.1 (hproj c).2.2
    (Cert.KernelIdeal.Blocks.qArr m c) (Cert.KernelIdeal.Blocks.wArr m c) (harr c).2.2.2.2.1 (harr c).2.2.2.2.2 p d).trans ?_
  have hk : Cert.KernelIdeal.Blocks.kArr m c = Cert.KernelIdeal.HostSide.kRef m c := Cert.KernelIdeal.HostSide.k_term m c
  show _ = ((attnReal (Cert.KernelIdeal.Blocks.qArr m c) (Cert.KernelIdeal.Blocks.kArr m c) (Cert.KernelIdeal.Blocks.wArr m c)
    p.val d : ℝ) : EReal)
  rw [hk]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
